-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S1024_S1x1024 : S1024.ShapeCasts S1x1024
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S2048x1024_S256x1024_0_0 : ∀ a, (![0, 0] : Fin 2 → Nat) a + S256x1024.size a ≤ S2048x1024.size a
  h_S256x1024 : 0 < S256x1024.numel
  shapeCasts_S256x1024_S256x1024 : S256x1024.ShapeCasts S256x1024
  packedbf16_S2048x1024_S256x1024_0_0 : (Rect.unit (s := S2048x1024) ![0, 0] S256x1024.size inb_S2048x1024_S256x1024_0_0).PackedRows (EltTy.packing .bf16)
  inb_S1x2048x1024_S1x256x1024_0_256_0 : ∀ a, (![0, 256, 0] : Fin 3 → Nat) a + S1x256x1024.size a ≤ S1x2048x1024.size a
  inb_S2048x1024_S256x1024_256_0 : ∀ a, (![256, 0] : Fin 2 → Nat) a + S256x1024.size a ≤ S2048x1024.size a
  packedbf16_S2048x1024_S256x1024_256_0 : (Rect.unit (s := S2048x1024) ![256, 0] S256x1024.size inb_S2048x1024_S256x1024_256_0).PackedRows (EltTy.packing .bf16)
  inb_S1x2048x1024_S1x256x1024_0_512_0 : ∀ a, (![0, 512, 0] : Fin 3 → Nat) a + S1x256x1024.size a ≤ S1x2048x1024.size a
  inb_S2048x1024_S256x1024_512_0 : ∀ a, (![512, 0] : Fin 2 → Nat) a + S256x1024.size a ≤ S2048x1024.size a
  packedbf16_S2048x1024_S256x1024_512_0 : (Rect.unit (s := S2048x1024) ![512, 0] S256x1024.size inb_S2048x1024_S256x1024_512_0).PackedRows (EltTy.packing .bf16)
  inb_S1x2048x1024_S1x256x1024_0_768_0 : ∀ a, (![0, 768, 0] : Fin 3 → Nat) a + S1x256x1024.size a ≤ S1x2048x1024.size a
  inb_S2048x1024_S256x1024_768_0 : ∀ a, (![768, 0] : Fin 2 → Nat) a + S256x1024.size a ≤ S2048x1024.size a
  packedbf16_S2048x1024_S256x1024_768_0 : (Rect.unit (s := S2048x1024) ![768, 0] S256x1024.size inb_S2048x1024_S256x1024_768_0).PackedRows (EltTy.packing .bf16)
  inb_S1x2048x1024_S1x256x1024_0_1024_0 : ∀ a, (![0, 1024, 0] : Fin 3 → Nat) a + S1x256x1024.size a ≤ S1x2048x1024.size a
  inb_S2048x1024_S256x1024_1024_0 : ∀ a, (![1024, 0] : Fin 2 → Nat) a + S256x1024.size a ≤ S2048x1024.size a
  packedbf16_S2048x1024_S256x1024_1024_0 : (Rect.unit (s := S2048x1024) ![1024, 0] S256x1024.size inb_S2048x1024_S256x1024_1024_0).PackedRows (EltTy.packing .bf16)
  inb_S1x2048x1024_S1x256x1024_0_1280_0 : ∀ a, (![0, 1280, 0] : Fin 3 → Nat) a + S1x256x1024.size a ≤ S1x2048x1024.size a
  inb_S2048x1024_S256x1024_1280_0 : ∀ a, (![1280, 0] : Fin 2 → Nat) a + S256x1024.size a ≤ S2048x1024.size a
  packedbf16_S2048x1024_S256x1024_1280_0 : (Rect.unit (s := S2048x1024) ![1280, 0] S256x1024.size inb_S2048x1024_S256x1024_1280_0).PackedRows (EltTy.packing .bf16)
  inb_S1x2048x1024_S1x256x1024_0_1536_0 : ∀ a, (![0, 1536, 0] : Fin 3 → Nat) a + S1x256x1024.size a ≤ S1x2048x1024.size a
  inb_S2048x1024_S256x1024_1536_0 : ∀ a, (![1536, 0] : Fin 2 → Nat) a + S256x1024.size a ≤ S2048x1024.size a
  packedbf16_S2048x1024_S256x1024_1536_0 : (Rect.unit (s := S2048x1024) ![1536, 0] S256x1024.size inb_S2048x1024_S256x1024_1536_0).PackedRows (EltTy.packing .bf16)
  inb_S1x2048x1024_S1x256x1024_0_1792_0 : ∀ a, (![0, 1792, 0] : Fin 3 → Nat) a + S1x256x1024.size a ≤ S1x2048x1024.size a
  inb_S2048x1024_S256x1024_1792_0 : ∀ a, (![1792, 0] : Fin 2 → Nat) a + S256x1024.size a ≤ S2048x1024.size a
  packedbf16_S2048x1024_S256x1024_1792_0 : (Rect.unit (s := S2048x1024) ![1792, 0] S256x1024.size inb_S2048x1024_S256x1024_1792_0).PackedRows (EltTy.packing .bf16)
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S4x2048x1024.size a
  hwx0_7 : ∀ i : grid0.Coords, EltTy.bits .f32 = 32 ∨ (Rect.block (s := S4x2048x1024) S1x256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttnSpec.lean ====
/-
  Single-head self-attention over the extended reals, row by row: the specification both programs are
  compared against.

  For one batch entry with rows `x s` (s < 2048, each a vector of 1024 entries) the three projections are
  `q s = x s · Wq + bq`, `k t = x t · Wk + bk`, `v t = x t · Wv + bv`; the scores of row `s` are
  `r t = (q s · k t) · c` with `c = 1/32 = 1/√1024`; with `M = max_t r t`, `p t = exp (r t − M)` and
  `L = Σ_t p t` the result row is `(Σ_t p t · v t e) / L`.
-/
import Idealize.ShloMosaic.PureOps.Ideal
import Idealize.ShloMosaic.Lib.ValueIdx

noncomputable section

namespace Cert.Attn

open Idealize.ShloMosaic

/-- Minus infinity, as both programs spell the initial value of their row maximum. -/
abbrev negInf : EReal := Ideal.ofBits .f32 0xFF800000#32

/-- The kernel's score factor: the f32 word of `0.03125 = 1/32`. -/
abbrev scale : EReal := Ideal.ofBits .f32 0x3D000000#32

/-- One row of a projection: `xrow · W + b`. -/
def projRow (xrow : Fin 1024 → EReal) (W : Fin 1024 → Fin 1024 → EReal) (b : Fin 1024 → EReal) (e : Fin 1024) : EReal :=
  (∑ d : Fin 1024, xrow d * W d e) + b e

/-- One row of scores: the query row against every key row, times the factor `c`. -/
def scoreRow (qrow : Fin 1024 → EReal) (k : Fin 2048 → Fin 1024 → EReal) (c : EReal) (t : Fin 2048) : EReal :=
  (∑ e : Fin 1024, qrow e * k t e) * c

/-- The maximum of a row of scores, folded from minus infinity. -/
def rowMax (r : Fin 2048 → EReal) : EReal := (Finset.univ : Finset (Fin 2048)).fold max negInf r

/-- The shifted exponentials of a row of scores. -/
def expo (r : Fin 2048 → EReal) (t : Fin 2048) : EReal := Ideal.exp (r t - rowMax r)

/-- Their sum: the softmax denominator of the row. -/
def rowSum (r : Fin 2048 → EReal) : EReal := ∑ t : Fin 2048, expo r t

/-- One result row: the exponentials' combination of the value rows, divided once by the denominator. -/
def outRow (r : Fin 2048 → EReal) (v : Fin 2048 → Fin 1024 → EReal) (e : Fin 1024) : EReal :=
  Ideal.div (∑ t : Fin 2048, expo r t * v t e) (rowSum r)

/-- The whole result: entry `(n, s, e)` of single-head self-attention of `x` under the three projections. -/
def attn (x : Fin 4 → Fin 2048 → Fin 1024 → EReal)
    (Wq : Fin 1024 → Fin 1024 → EReal) (bq : Fin 1024 → EReal)
    (Wk : Fin 1024 → Fin 1024 → EReal) (bk : Fin 1024 → EReal)
    (Wv : Fin 1024 → Fin 1024 → EReal) (bv : Fin 1024 → EReal)
    (n : Fin 4) (s : Fin 2048) (e : Fin 1024) : EReal :=
  outRow (scoreRow (projRow (x n s) Wq bq) (fun t => projRow (x n t) Wk bk) scale)
    (fun t => projRow (x n t) Wv bv) e

end Cert.Attn

end
-- ==== Proof.KernelSpec.lean ====
/-
  The kernel program's result, stated over its argument arrays: entry (n, s, e) of the result array is the
  single-head self-attention of the argument arrays at (n, s, e).
-/
import proofs.«109713_j73014444032668_2_alg».proof.KernelIdeal
import proofs.«109713_j73014444032668_2_alg».proof.Proof.AttnSpec
import Idealize.ShloMosaic.Lib.ValueIdx

noncomputable section

namespace Cert.KernelIdeal.Spec

open Cert.KernelIdeal Idealize.ShloMosaic Idealize.ShloMosaic.ValueIdx Idealize.ShloMosaic.TcCoe Idealize.SL.Sem Cert.Attn

variable (m : (ℓ : Loc nD τ sig) → Buf (Elt Ideal) ℓ) (c : Dev nD)

/-- The activations, by coordinates. -/
def argX : Fin 4 → Fin 2048 → Fin 1024 → EReal := fun n s d => m ((c.tc : Thread nD τ).loc main_arg0) (ix3 n s d)
/-- The query, key and value weights and biases, by coordinates. -/
def argWq : Fin 1024 → Fin 1024 → EReal := fun d e => m ((c.tc : Thread nD τ).loc main_arg1) (ix2 d e)
def argBq : Fin 1024 → EReal := fun e => m ((c.tc : Thread nD τ).loc main_arg2) (ix1 e)
def argWk : Fin 1024 → Fin 1024 → EReal := fun d e => m ((c.tc : Thread nD τ).loc main_arg3) (ix2 d e)
def argBk : Fin 1024 → EReal := fun e => m ((c.tc : Thread nD τ).loc main_arg4) (ix1 e)
def argWv : Fin 1024 → Fin 1024 → EReal := fun d e => m ((c.tc : Thread nD τ).loc main_arg5) (ix2 d e)
def argBv : Fin 1024 → EReal := fun e => m ((c.tc : Thread nD τ).loc main_arg6) (ix1 e)

/-- The attention of the argument arrays at coordinates. -/
def attnAt (n : Fin 4) (s : Fin 2048) (e : Fin 1024) : EReal :=
  attn (argX m c) (argWq m c) (argBq m c) (argWk m c) (argBk m c) (argWv m c) (argBv m c) n s e

/-- The whole result array as one function of its index. -/
def result : S4x2048x1024.Idx → EReal := fun y =>
  attnAt m c (⟨(y 0).val, (y 0).isLt⟩ : Fin 4) (⟨(y 1).val, (y 1).isLt⟩ : Fin 2048) (⟨(y 2).val, (y 2).isLt⟩ : Fin 1024)

theorem result_apply (n : Fin 4) (s : Fin 2048) (e : Fin 1024) : result m c (ix3 n s e) = attnAt m c n s e := rfl

end Cert.KernelIdeal.Spec

end
-- ==== Proof.PreReal.lean ====
/-
  From the finiteness precondition to real-valued inputs, at the extended-real instance.

  The precondition is the conjunction, over the seven float arrays, of "every entry x satisfies |x| < +∞",
  each conjunct being an all-axes reduction by `and` of the elementwise comparison of |x| against the
  pattern of +∞, and the whole being a chain of `and`s of one-bit words. At the extended-real instance
  |x| is `max x (-x)`, the pattern 0x7F800000 denotes ⊤, and the comparison is the strict order of the
  extended reals. An extended real x with `max x (-x) < ⊤` is neither ⊤ (then the maximum is ⊤) nor ⊥
  (then -x = ⊤), so it is the image of a real number. Hence every entry of every input is a real.
-/
import proofs.«109713_j73014444032668_2_alg».proof.Pre_finite_inputs
import proofs.«109713_j73014444032668_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreReal

open Idealize.ShloMosaic Cert.Pre_finite_inputs

/-- The rank-0 shape has exactly one index (the empty tuple of coordinates). -/
instance : Subsingleton S_.Idx := ⟨fun a b => funext fun d => d.elim0⟩

/-- An extended real whose absolute value `max x (-x)` is strictly below ⊤ is a real number:
    at ⊤ the maximum is ⊤, at ⊥ the negation is ⊤, and neither is strictly below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element step, for an array of any shape: if the comparison "|x| < +∞" (the constant +∞ broadcast
    from a scalar) is the word 1 at index `i`, then `x i` is a real number. The comparison at `i` reads
    `max (x i) (-(x i)) < ⊤` once the pattern 0x7F800000 is evaluated to ⊤. -/
theorem elem_real {s : Shape} (dims : Fin S_.rank → Fin s.rank) (hb : S_.BroadcastsInDim s dims)
    (x : FVec Ideal s .f32) (i : s.Idx)
    (h : cmpf .olt (Host.absf x) (broadcastInDim s dims hb (constant (F := Ideal) S_ .f32 0x7F800000#32)) i = 1#1) :
    ∃ r : ℝ, x i = (r : EReal) := by
  simp only [cmpf, Host.absf, broadcastInDim, constant] at h
  rw [Ideal.cmpf_def, Ideal.hostAbsf_def, Ideal.absf_def, Ideal.ofBits_def] at h
  have htop : Ideal.ofBits .f32 0x7F800000#32 = (⊤ : EReal) := by simp [Ideal.ofBits, Ideal.ieee]
  rw [htop] at h
  have hlt : max (x i) (-(x i)) < (⊤ : EReal) := by
    by_contra hn
    simp [Ideal.cmp, hn] at h
  exact real_of_abs_lt_top (x i) hlt

/-- A family of extended reals each of which is a real is the image of a real-valued family. -/
theorem exists_real_fun {ι : Type} {a : ι → EReal} (h : ∀ i, ∃ r : ℝ, a i = (r : EReal)) :
    ∃ f : ι → ℝ, a = fun i => (f i : EReal) :=
  ⟨fun i => (h i).choose, funext fun i => (h i).choose_spec⟩

/-- Under the finiteness precondition every entry of each of the seven float inputs is a real number.
    The precondition's one-bit result is a left-nested chain of `and`s of seven all-axes `and`-reductions;
    a chain of `and`s is 1 exactly when every link is, a reduction by `and` into a single index is 1 only
    if every reduced element is, and each element is the comparison read by `elem_real`. -/
theorem real_of_pre [hP : Cert.Pre_finite_inputs.Facts]
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  unfold Cert.Pre_finite_inputs.fn Cert.Pre_finite_inputs.fn_part1 at e
  dsimp only at e
  simp only [andi, IntOp.andi_eq_one] at e
  obtain ⟨⟨⟨⟨⟨⟨h0, h1⟩, h2⟩, h3⟩, h4⟩, h5⟩, h6⟩ := e
  exact ⟨fun i => elem_real _ _ a0 i (Host.reduce_andi_all _ _ _ _ _ h0 i),
    fun i => elem_real _ _ a1 i (Host.reduce_andi_all _ _ _ _ _ h1 i),
    fun i => elem_real _ _ a2 i (Host.reduce_andi_all _ _ _ _ _ h2 i),
    fun i => elem_real _ _ a3 i (Host.reduce_andi_all _ _ _ _ _ h3 i),
    fun i => elem_real _ _ a4 i (Host.reduce_andi_all _ _ _ _ _ h4 i),
    fun i => elem_real _ _ a5 i (Host.reduce_andi_all _ _ _ _ _ h5 i),
    fun i => elem_real _ _ a6 i (Host.reduce_andi_all _ _ _ _ _ h6 i)⟩

end Cert.PreReal

end
-- ==== Proof.AttnAlgebra.lean ====
/-
  Extended-real algebra behind the comparison of the two attention programs.

  Three kinds of facts live here.  First, the float words the programs spell are the extended reals they
  denote: the word of minus infinity is the bottom element, the word of 0.03125 is the real 1/32, and the
  square root of the word of 1024.0 is 32, so that dividing by it is multiplying by 1/32.  Second,
  finiteness: projections, scores, the row maximum and the softmax denominator of real inputs are reals,
  the denominator a positive one.  Third, the one rearrangement the comparison needs: a division by a
  positive real moves across a finite sum of products, whatever extended reals the summands are, because
  multiplication by a non-negative real distributes over every sum of extended reals.
-/
import Idealize.ShloMosaic.PureOps.Ideal
import Idealize.ShloMosaic.PureOps.Ideal.Laws
import proofs.«109713_j73014444032668_2_alg».proof.Proof.AttnSpec

noncomputable section

namespace Cert.Attn

open Idealize.ShloMosaic

/-! ### The float words as extended reals -/

/-- The word with sign bit set, all-ones exponent and zero significand is minus infinity. -/
theorem negInf_eq_bot : negInf = ⊥ := by
  simp [negInf, Ideal.ofBits, Ideal.ieee]

/-- Minus infinity is neutral for the maximum. -/
theorem max_negInf (y : EReal) : max negInf y = y := by
  rw [negInf_eq_bot]; exact max_bot_left y

/-- The all-zero word is zero. -/
theorem zero_word : Ideal.ofBits .f32 0x00000000#32 = 0 := Ideal.ofBits_zero_f32

/-- The word 0x3D000000 has exponent field 122 and zero significand: 2^23 · 2^(122 − 127 − 23) = 2^(−5). -/
theorem scale_eq : scale = (((1 / 32 : ℝ)) : EReal) := by
  simp [scale, Ideal.ofBits, Ideal.ieee, -EReal.coe_mul]; norm_num

/-- The word 0x44800000 has exponent field 137 and zero significand: 2^23 · 2^(137 − 127 − 23) = 2^10. -/
theorem word_1024 : Ideal.ofBits .f32 0x44800000#32 = ((1024 : ℝ) : EReal) := by
  simp [Ideal.ofBits, Ideal.ieee, -EReal.coe_mul]; norm_num

/-- Dividing by the square root of the f32 word of 1024.0 is multiplying by the f32 word of 1/32, on every
    extended real. -/
theorem div_sqrt1024 (y : EReal) :
    Ideal.div y (Ideal.sqrt (Ideal.ofBits .f32 0x44800000#32)) = y * scale := by
  have h32 : Real.sqrt 1024 = 32 := by
    rw [show (1024 : ℝ) = 32 ^ 2 by norm_num]; exact Real.sqrt_sq (by norm_num)
  rw [word_1024, Ideal.sqrt_coe, if_neg (by norm_num), h32,
    Ideal.div_coe (by norm_num : (32 : ℝ) ≠ 0), scale_eq]

/-! ### Finite sums of reals inside the extended reals -/

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of extended reals that are all reals is a real. -/
theorem sum_real {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

/-- A sum of two reals is a real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

/-! ### Finiteness of the intermediate rows -/

theorem projRow_real {xrow : Fin 1024 → EReal} {W : Fin 1024 → Fin 1024 → EReal} {b : Fin 1024 → EReal}
    (hx : ∀ d, ∃ r : ℝ, xrow d = (r : EReal)) (hW : ∀ d e, ∃ r : ℝ, W d e = (r : EReal))
    (hb : ∀ e, ∃ r : ℝ, b e = (r : EReal)) (e : Fin 1024) :
    ∃ r : ℝ, projRow xrow W b e = (r : EReal) :=
  add_real (sum_real _ fun d => mul_real (hx d) (hW d e)) (hb e)

theorem scoreRow_real {qrow : Fin 1024 → EReal} {k : Fin 2048 → Fin 1024 → EReal}
    (hq : ∀ e, ∃ r : ℝ, qrow e = (r : EReal)) (hk : ∀ t e, ∃ r : ℝ, k t e = (r : EReal)) (t : Fin 2048) :
    ∃ r : ℝ, scoreRow qrow k scale t = (r : EReal) :=
  mul_real (sum_real _ fun e => mul_real (hq e) (hk t e)) ⟨1 / 32, scale_eq⟩

/-- The maximum of a row folded from minus infinity is attained at some entry of the row. -/
theorem rowMax_mem (r : Fin 2048 → EReal) : ∃ t, rowMax r = r t := by
  have h : rowMax r = (Finset.univ : Finset (Fin 2048)).sup r := by
    rw [rowMax, negInf_eq_bot]; rfl
  obtain ⟨t, -, ht⟩ := Finset.exists_mem_eq_sup (Finset.univ : Finset (Fin 2048))
    Finset.univ_nonempty r
  exact ⟨t, h.trans ht⟩

/-- The maximum of a row of real scores is a real. -/
theorem rowMax_real {r : Fin 2048 → EReal} (hr : ∀ t, ∃ a : ℝ, r t = (a : EReal)) :
    ∃ a : ℝ, rowMax r = (a : EReal) := by
  obtain ⟨t, ht⟩ := rowMax_mem r
  obtain ⟨a, ha⟩ := hr t
  exact ⟨a, ht.trans ha⟩

/-- Each shifted exponential of a row of real scores is a positive real. -/
theorem expo_pos_real {r : Fin 2048 → EReal} (hr : ∀ t, ∃ a : ℝ, r t = (a : EReal)) (t : Fin 2048) :
    ∃ p : ℝ, 0 < p ∧ expo r t = (p : EReal) := by
  obtain ⟨m, hm⟩ := rowMax_real hr
  obtain ⟨a, ha⟩ := hr t
  refine ⟨Real.exp (a - m), Real.exp_pos _, ?_⟩
  rw [expo, hm, ha, ← EReal.coe_sub, Ideal.exp_coe]

/-- The softmax denominator of a row of real scores is a positive real. -/
theorem rowSum_pos_real {r : Fin 2048 → EReal} (hr : ∀ t, ∃ a : ℝ, r t = (a : EReal)) :
    ∃ l : ℝ, 0 < l ∧ rowSum r = (l : EReal) := by
  choose p hp0 hp using expo_pos_real hr
  refine ⟨∑ t : Fin 2048, p t, Finset.sum_pos (fun t _ => hp0 t) Finset.univ_nonempty, ?_⟩
  rw [rowSum, coe_sum]; exact Finset.sum_congr rfl fun t _ => hp t

/-! ### Moving a division by a positive real across a sum -/

/-- A non-negative real factor distributes over every finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Division by a positive real moves across a finite sum of products:
    Σ_t (p t / l) · w t = (Σ_t p t · w t) / l, for arbitrary extended reals p t, w t. -/
theorem sum_div_mul {l : ℝ} (hl : 0 < l) (p w : Fin 2048 → EReal) :
    ∑ t : Fin 2048, Ideal.div (p t) (l : EReal) * w t
      = Ideal.div (∑ t : Fin 2048, p t * w t) (l : EReal) := by
  have hc : (0 : ℝ) ≤ 1 / l := by positivity
  rw [Ideal.div_coe hl.ne', sum_mul_coe _ _ hc]
  refine Finset.sum_congr rfl fun t _ => ?_
  rw [Ideal.div_coe hl.ne', mul_right_comm]

end Cert.Attn

end
-- ==== Proof.RefValue.lean ====
/-
  The reference program read index by index: its result at (n, s, e) is the single-head self-attention
  specification `Cert.Attn.attn` of its seven arguments.

  The three projections are a dot product along the feature axis plus a broadcast bias; the scores are the
  batched dot product of the query and key projections divided by √1024, which is multiplication by 1/32;
  the row maximum is folded from minus infinity and then taken once more against minus infinity, which
  changes nothing; the exponentials of the shifted scores are summed from zero; each exponential is divided
  by that sum and the quotients are combined with the value rows. When the five arguments on the softmax path
  hold reals the sum is a positive real, so dividing every term by it is dividing the combination once, the
  form in which the specification is written.
-/
import proofs.«109713_j73014444032668_2_alg».proof.Proof.Gen.ReferenceIdeal.Read
import proofs.«109713_j73014444032668_2_alg».proof.Proof.AttnSpec
import proofs.«109713_j73014444032668_2_alg».proof.Proof.AttnAlgebra
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-- The three argument types of the reference: the activations, a weight matrix, a bias vector. -/
abbrev T3 := (⟨S4x2048x1024, .f32⟩ : BufTy).Contents (Elt Ideal)
abbrev T2 := (⟨S1024x1024, .f32⟩ : BufTy).Contents (Elt Ideal)
abbrev T1 := (⟨S1024, .f32⟩ : BufTy).Contents (Elt Ideal)

/-! ## The projections -/

/-- Entry (n, s, e) of a projection is row (n, s) of the activations against column e of the weights,
    plus entry e of the bias. -/
theorem proj_apply (x0 : T3) (w : T2) (b : T1) (n : Fin 4) (s : Fin 2048) (e : Fin 1024) :
    val_main_v3 (F := Ideal) x0 w b (ix3 n s e)
      = projRow (fun d => x0 (ix3 n s d)) (fun d e => w (ix2 d e)) (fun e => b (ix1 e)) e := by
  rw [val_main_v3_apply, val_main_v0_apply, val_main_v2_apply, val_main_v1_apply]
  unfold projRow
  show (∑ k : Fin 1024, x0 (lidx_main_v0 (ix3 n s e) k) * w (ridx_main_v0 (ix3 n s e) k))
      + b (idx_main_v1 (idx_main_v2 (ix3 n s e))) = _
  have el : ∀ k : Fin 1024, lidx_main_v0 (ix3 n s e) k = ix3 n s k := fun k => funext fun a => by
    match a with | ⟨0, _⟩ => rfl | ⟨1, _⟩ => rfl | ⟨2, _⟩ => rfl
  have er : ∀ k : Fin 1024, ridx_main_v0 (ix3 n s e) k = ix2 k e := fun k => funext fun a => by
    match a with | ⟨0, _⟩ => rfl | ⟨1, _⟩ => rfl
  have eb : idx_main_v1 (idx_main_v2 (ix3 n s e)) = ix1 e := funext fun a => by
    match a with | ⟨0, _⟩ => rfl
  rw [eb]
  exact congrArg (· + b (ix1 e)) (Finset.sum_congr rfl fun k _ => by rw [el k, er k])

theorem projK_apply (x0 : T3) (w : T2) (b : T1) (n : Fin 4) (s : Fin 2048) (e : Fin 1024) :
    val_main_v7 (F := Ideal) x0 w b (ix3 n s e)
      = projRow (fun d => x0 (ix3 n s d)) (fun d e => w (ix2 d e)) (fun e => b (ix1 e)) e :=
  proj_apply x0 w b n s e

theorem projV_apply (x0 : T3) (w : T2) (b : T1) (n : Fin 4) (s : Fin 2048) (e : Fin 1024) :
    val_main_v11 (F := Ideal) x0 w b (ix3 n s e)
      = projRow (fun d => x0 (ix3 n s d)) (fun d e => w (ix2 d e)) (fun e => b (ix1 e)) e :=
  proj_apply x0 w b n s e

/-! ## The scores -/

theorem score_apply (x0 : T3) (x1 : T2) (x2 : T1) (x3 : T2) (x4 : T1) (n : Fin 4) (s t : Fin 2048) :
    val_main_v15 (F := Ideal) x0 x1 x2 x3 x4 (ix3 n s t)
      = scoreRow (projRow (fun d => x0 (ix3 n s d)) (fun d e => x1 (ix2 d e)) (fun e => x2 (ix1 e)))
          (fun t => projRow (fun d => x0 (ix3 n t d)) (fun d e => x3 (ix2 d e)) (fun e => x4 (ix1 e))) scale t := by
  rw [val_main_v15_apply, val_main_v12_apply, val_main_v14_apply, val_main_v13_apply, val_main_cst_apply]
  show Ideal.div _ (Ideal.sqrt (Ideal.ofBits .f32 0x44800000#32)) = _
  rw [div_sqrt1024]
  unfold scoreRow
  refine congrArg (· * scale) (Finset.sum_congr rfl fun k _ => ?_)
  have el : lidx_main_v12 (ix3 n s t) k = ix3 n s k := funext fun a => by
    match a with | ⟨0, _⟩ => rfl | ⟨1, _⟩ => rfl | ⟨2, _⟩ => rfl
  have er : ridx_main_v12 (ix3 n s t) k = ix3 n t k := funext fun a => by
    match a with | ⟨0, _⟩ => rfl | ⟨1, _⟩ => rfl | ⟨2, _⟩ => rfl
  rw [el, er, proj_apply, projK_apply]

/-- The scores row of (n, s), as the reference computes it. -/
def refScores (x0 : T3) (x1 : T2) (x2 : T1) (x3 : T2) (x4 : T1) (n : Fin 4) (s : Fin 2048) : Fin 2048 → EReal :=
  fun t => val_main_v15 (F := Ideal) x0 x1 x2 x3 x4 (ix3 n s t)

/-! ## The row maximum -/

/-- Row (n, s) of the reduced array with coordinate k put back on the last axis is (n, s, k). -/
theorem lift_row (h : S4x2048x2048.Reduces [2] S4x2048) (n : Fin 4) (s : Fin 2048) (k : Fin (S4x2048x2048.size 2)) :
    h.lift (ix2 n s) k = ix3 n s (⟨k.val, k.isLt⟩ : Fin 2048) := by
  funext c; apply Fin.ext
  match c with | ⟨0, _⟩ => rfl | ⟨1, _⟩ => rfl | ⟨2, _⟩ => rfl

/-- The maximum over the last axis, folded from minus infinity, is at (n, s) the maximum of row (n, s). -/
theorem reduceMax_row (y : FVec Ideal S4x2048x2048 .f32) (n : Fin 4) (s : Fin 2048) :
    Host.reduce FloatOps.maximumf y (val_main_cst_0 (F := Ideal)) reducesTo_S4x2048x2048_S4x2048_d2 h_S_ (ix2 n s)
      = rowMax (fun t => y (ix3 n s t)) := by
  have h : S4x2048x2048.Reduces [2] S4x2048 := by decide
  rw [Host.reduce_eq_fold_single FloatOps.maximumf y _ reducesTo_S4x2048x2048_S4x2048_d2 h h_S_]
  have hf : (y ∘ h.lift (ix2 n s)) = fun t : Fin 2048 => y (ix3 n s t) :=
    funext fun k => congrArg y (lift_row h n s k)
  unfold rowMax
  exact congrArg (fun f => Finset.fold max negInf f (Finset.univ : Finset (Fin 2048))) hf

theorem rowMax_apply (x0 : T3) (x1 : T2) (x2 : T1) (x3 : T2) (x4 : T1) (n : Fin 4) (s : Fin 2048) :
    val_main_v18 (F := Ideal) x0 x1 x2 x3 x4 (ix2 n s) = rowMax (refScores x0 x1 x2 x3 x4 n s) := by
  rw [val_main_v18_apply, val_main_v17_apply, val_main_cst_1_apply]
  refine (max_negInf _).trans ?_
  exact reduceMax_row (val_main_v15 (F := Ideal) x0 x1 x2 x3 x4) n s

/-! ## The exponentials, their sum, the quotients -/

theorem expo_apply (x0 : T3) (x1 : T2) (x2 : T1) (x3 : T2) (x4 : T1) (n : Fin 4) (s t : Fin 2048) :
    val_main_v22 (F := Ideal) x0 x1 x2 x3 x4 (ix3 n s t) = expo (refScores x0 x1 x2 x3 x4 n s) t := by
  rw [val_main_v22_apply, val_main_v21_apply, val_main_v20_apply, val_main_v19_apply]
  have ei : idx_main_v19 (idx_main_v20 (ix3 n s t)) = ix2 n s := funext fun a => by
    match a with | ⟨0, _⟩ => rfl | ⟨1, _⟩ => rfl
  rw [ei, rowMax_apply]
  rfl

theorem rowSum_apply (x0 : T3) (x1 : T2) (x2 : T1) (x3 : T2) (x4 : T1) (n : Fin 4) (s : Fin 2048) :
    val_main_v23 (F := Ideal) x0 x1 x2 x3 x4 (ix2 n s) = rowSum (refScores x0 x1 x2 x3 x4 n s) := by
  rw [val_main_v23_apply, val_main_cst_2_apply]
  show Ideal.ofBits .f32 0x00000000#32 + _ = _
  rw [zero_word, zero_add]
  unfold rowSum
  refine Finset.sum_congr rfl fun k _ => ?_
  have ei : idx_main_v23 (ix2 n s) k = ix3 n s k := funext fun a => by
    match a with | ⟨0, _⟩ => rfl | ⟨1, _⟩ => rfl | ⟨2, _⟩ => rfl
  rw [ei, expo_apply]

theorem prob_apply (x0 : T3) (x1 : T2) (x2 : T1) (x3 : T2) (x4 : T1) (n : Fin 4) (s t : Fin 2048) :
    val_main_v26 (F := Ideal) x0 x1 x2 x3 x4 (ix3 n s t)
      = Ideal.div (expo (refScores x0 x1 x2 x3 x4 n s) t) (rowSum (refScores x0 x1 x2 x3 x4 n s)) := by
  rw [val_main_v26_apply, val_main_v25_apply, val_main_v24_apply]
  have ei : idx_main_v24 (idx_main_v25 (ix3 n s t)) = ix2 n s := funext fun a => by
    match a with | ⟨0, _⟩ => rfl | ⟨1, _⟩ => rfl
  rw [ei, rowSum_apply, expo_apply]
  rfl

/-! ## The result -/

/-- The reference's result at (n, s, e) is the specification's, once the five arguments on the softmax
    path hold reals: then the row's denominator is a positive real, and dividing each exponential by it
    before the combination with the value rows is dividing the combination once. -/
theorem ref_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal))
    (n : Fin 4) (s : Fin 2048) (e : Fin 1024) :
    Cert.ReferenceIdeal.Read.val_main_v27 (F := Ideal) x0 x1 x2 x3 x4 x5 x6 (ValueIdx.ix3 n s e)
      = Cert.Attn.attn (fun n s d => x0 (ValueIdx.ix3 n s d)) (fun d e => x1 (ValueIdx.ix2 d e)) (fun e => x2 (ValueIdx.ix1 e))
          (fun d e => x3 (ValueIdx.ix2 d e)) (fun e => x4 (ValueIdx.ix1 e)) (fun d e => x5 (ValueIdx.ix2 d e))
          (fun e => x6 (ValueIdx.ix1 e)) n s e := by
  have hR : refScores x0 x1 x2 x3 x4 n s
      = scoreRow (projRow (fun d => x0 (ix3 n s d)) (fun d e => x1 (ix2 d e)) (fun e => x2 (ix1 e)))
          (fun t => projRow (fun d => x0 (ix3 n t d)) (fun d e => x3 (ix2 d e)) (fun e => x4 (ix1 e))) scale :=
    funext fun t => score_apply x0 x1 x2 x3 x4 n s t
  have hreal : ∀ t, ∃ a : ℝ, refScores x0 x1 x2 x3 x4 n s t = (a : EReal) := by
    rw [hR]
    exact fun t => scoreRow_real
      (fun e => projRow_real (fun d => h0 _) (fun d e => h1 _) (fun e => h2 _) e)
      (fun t e => projRow_real (fun d => h0 _) (fun d e => h3 _) (fun e => h4 _) e) t
  obtain ⟨l, hl, hsum⟩ := rowSum_pos_real hreal
  have step : ∀ k : Fin 2048,
      val_main_v26 (F := Ideal) x0 x1 x2 x3 x4 (lidx_main_v27 (ix3 n s e) k)
          * val_main_v11 (F := Ideal) x0 x5 x6 (ridx_main_v27 (ix3 n s e) k)
        = Ideal.div (expo (refScores x0 x1 x2 x3 x4 n s) k) (l : EReal)
          * projRow (fun d => x0 (ix3 n k d)) (fun d e => x5 (ix2 d e)) (fun e => x6 (ix1 e)) e := by
    intro k
    have el : lidx_main_v27 (ix3 n s e) k = ix3 n s k := funext fun a => by
      match a with | ⟨0, _⟩ => rfl | ⟨1, _⟩ => rfl | ⟨2, _⟩ => rfl
    have er : ridx_main_v27 (ix3 n s e) k = ix3 n k e := funext fun a => by
      match a with | ⟨0, _⟩ => rfl | ⟨1, _⟩ => rfl | ⟨2, _⟩ => rfl
    rw [el, er, prob_apply, projV_apply, hsum]
  rw [val_main_v27_apply]
  refine (Finset.sum_congr rfl fun k _ => step k).trans ?_
  refine (sum_div_mul hl (expo (refScores x0 x1 x2 x3 x4 n s))
    (fun t => projRow (fun d => x0 (ix3 n t d)) (fun d e => x5 (ix2 d e)) (fun e => x6 (ix1 e)) e)).trans ?_
  rw [← hsum, hR]
  rfl

end Cert.ReferenceIdeal.RefValue

end
-- ==== Proof.KernelValue.lean ====
/-
  From the blocks to the whole array, for the kernel program.

  The grid has 4 · 8 points; point t = 8·b + q writes back the block of 256 rows q of batch entry b: the
  block [1, 256, 1024] at block index (b, q, 0) of the result [4, 2048, 1024]. Entry (u, r, e) of that block
  is entry (b, 256·q + r, e) of the array. So once every point's block is known to hold the attention of the
  argument arrays at the rows it stands for, each point writes back a block of one function of the array
  index, the blocks cover the array (index (n, s, e) lies in the block of point 8·n + s / 256), and the
  array ends holding that function.
-/
import proofs.«109713_j73014444032668_2_alg».proof.Proof.Gen.KernelIdeal.Value
import proofs.«109713_j73014444032668_2_alg».proof.Proof.KernelSpec
import Idealize.ShloMosaic.Lib.Pipeline.Value
import Idealize.ShloMosaic.Lib.ValueIdx

noncomputable section

namespace Cert.KernelIdeal.FinalValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The output window's block index at point t is (t / 8, t % 8, 0): decided over the 32 points. -/
theorem blockIndex7 : ∀ t : Fin cfg0.N, win0_7.index t (0 : Fin 3) = t.val / 8 ∧ win0_7.index t (1 : Fin 3) = t.val % 8
    ∧ win0_7.index t (2 : Fin 3) = 0 :=
  (by decide +kernel : ∀ t : Fin grid0.N, _)

/-- WHAT POINT t WRITES BACK is block t of the attention of the argument arrays, given that the block the
    body leaves at t holds the attention at batch entry t / 8 and rows 256·(t % 8) … 256·(t % 8) + 255. -/
theorem flushed7_eq (c : Dev nD)
    (hout : ∀ (t : Fin cfg0.N) (u : Fin 1) (r : Fin 256) (e : Fin 1024),
      (outsAt0 (F := Ideal) m c t.val t.isLt).1 (ix3 u r e)
        = Spec.attnAt m c (⟨t.val / 8, by have := t.isLt; have : cfg0.N = 32 := N_0; omega⟩ : Fin 4)
            (⟨256 * (t.val % 8) + r.val, by have := r.isLt; omega⟩ : Fin 2048) e)
    (t : Fin cfg0.N) :
    (dats m 0 c).flushed 7 t = ((cfg0.win 7).blk t).view.read (Elt Ideal) (Spec.result m c) := by
  rw [Value.flushed7]
  obtain ⟨e0, e1, e2⟩ := blockIndex7 t
  have hN : cfg0.N = 32 := N_0
  have ht : t.val < 32 := lt_of_lt_of_eq t.isLt hN
  funext y
  have hy0 : (y 0).val < 1 := (y 0).isLt
  have hy1 : (y 1).val < 256 := (y 1).isLt
  have hy2 : (y 2).val < 1024 := (y 2).isLt
  have hx : (cfg0.win 7).xinj (grid0.coords t) y
      = ix3 (⟨(y 0).val, hy0⟩ : Fin 1) (⟨(y 1).val, hy1⟩ : Fin 256) (⟨(y 2).val, hy2⟩ : Fin 1024) :=
    funext fun a => by match a with | ⟨0, _⟩ => rfl | ⟨1, _⟩ => rfl | ⟨2, _⟩ => rfl
  have hi : ((cfg0.win 7).blk t).view.emb y
      = ix3 (⟨t.val / 8, by omega⟩ : Fin 4) (⟨256 * (t.val % 8) + (y 1).val, by omega⟩ : Fin 2048)
          (⟨(y 2).val, hy2⟩ : Fin 1024) := by
    funext a; apply Fin.ext
    match a with
    | ⟨0, _⟩ => show win0_7.index t (0 : Fin 3) * 1 + 1 * (y 0).val = t.val / 8; omega
    | ⟨1, _⟩ => show win0_7.index t (1 : Fin 3) * 256 + 1 * (y 1).val = 256 * (t.val % 8) + (y 1).val; omega
    | ⟨2, _⟩ => show win0_7.index t (2 : Fin 3) * 1024 + 1 * (y 2).val = (y 2).val; omega
  show (outsAt0 (F := Ideal) m c t.val t.isLt).1 ((cfg0.win 7).xinj (grid0.coords t) y)
    = Spec.result m c (((cfg0.win 7).blk t).view.emb y)
  rw [hx, hi, hout, Spec.result_apply]

/-- An index of the array is in point t's block iff each coordinate is in the block's range on its axis. -/
theorem mem_blk7 (t : Fin cfg0.N) (i : S4x2048x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v7).slice (win0_7.rect t)).set ↔ _
  rw [View.set_slice_whole, Rect.mem_set_unit]
  exact Iff.rfl

/-- THE COVER: index (n, s, e) of the array lies in the block of point 8·n + s / 256, which writes back. -/
theorem cover7 (i : S4x2048x1024.Idx) :
    ∃ t : Fin cfg0.N, (cfg0.win 7).flush t = true ∧ i ∈ ((cfg0.win 7).blk t).view.set := by
  have hN : cfg0.N = 32 := N_0
  have hi0 : (i 0).val < 4 := (i 0).isLt
  have hi1 : (i 1).val < 2048 := (i 1).isLt
  have hi2 : (i 2).val < 1024 := (i 2).isLt
  have hlt : 8 * (i 0).val + (i 1).val / 256 < cfg0.N := lt_of_lt_of_eq (by omega) hN.symm
  refine ⟨⟨8 * (i 0).val + (i 1).val / 256, hlt⟩, flush0_7 _, ?_⟩
  obtain ⟨e0, e1, e2⟩ := blockIndex7 ⟨8 * (i 0).val + (i 1).val / 256, hlt⟩
  have e0' : win0_7.index ⟨8 * (i 0).val + (i 1).val / 256, hlt⟩ (0 : Fin 3) = (8 * (i 0).val + (i 1).val / 256) / 8 := e0
  have e1' : win0_7.index ⟨8 * (i 0).val + (i 1).val / 256, hlt⟩ (1 : Fin 3) = (8 * (i 0).val + (i 1).val / 256) % 8 := e1
  rw [mem_blk7]
  intro a
  match a with
  | ⟨0, _⟩ =>
    show win0_7.index ⟨8 * (i 0).val + (i 1).val / 256, hlt⟩ (0 : Fin 3) * 1 ≤ (i 0).val
      ∧ (i 0).val < win0_7.index ⟨8 * (i 0).val + (i 1).val / 256, hlt⟩ (0 : Fin 3) * 1 + 1
    omega
  | ⟨1, _⟩ =>
    show win0_7.index ⟨8 * (i 0).val + (i 1).val / 256, hlt⟩ (1 : Fin 3) * 256 ≤ (i 1).val
      ∧ (i 1).val < win0_7.index ⟨8 * (i 0).val + (i 1).val / 256, hlt⟩ (1 : Fin 3) * 256 + 256
    omega
  | ⟨2, _⟩ =>
    show win0_7.index ⟨8 * (i 0).val + (i 1).val / 256, hlt⟩ (2 : Fin 3) * 1024 ≤ (i 2).val
      ∧ (i 2).val < win0_7.index ⟨8 * (i 0).val + (i 1).val / 256, hlt⟩ (2 : Fin 3) * 1024 + 1024
    omega

/-- THE ARRAY after the run is the attention of the argument arrays, index by index. -/
theorem final7 (c : Dev nD)
    (hout : ∀ (t : Fin cfg0.N) (u : Fin 1) (r : Fin 256) (e : Fin 1024),
      (outsAt0 (F := Ideal) m c t.val t.isLt).1 (ix3 u r e)
        = Spec.attnAt m c (⟨t.val / 8, by have := t.isLt; have : cfg0.N = 32 := N_0; omega⟩ : Fin 4)
            (⟨256 * (t.val % 8) + r.val, by have := r.isLt; omega⟩ : Fin 2048) e) :
    (dats m 0 c).arrAt 7 cfg0.N = Spec.result m c :=
  (dats m 0 c).arrAt_eq_of_cover 7 (Spec.result m c) (fun t _ => flushed7_eq m c hout t) cover7

/-- The run, read: the result array at the attention of the argument arrays, the arguments unchanged. -/
theorem run (ρ : Dev nD → PrngReg)
    (hout : ∀ (c : Dev nD) (t : Fin cfg0.N) (u : Fin 1) (r : Fin 256) (e : Fin 1024),
      (outsAt0 (F := Ideal) m c t.val t.isLt).1 (ix3 u r e)
        = Spec.attnAt m c (⟨t.val / 8, by have := t.isLt; have : cfg0.N = 32 := N_0; omega⟩ : Fin 4)
            (⟨256 * (t.val % 8) + r.val, by have := r.isLt; omega⟩ : Fin 2048) e) :
    θ_run defs (onTc (τ := τ) (main (F := Ideal))) ⟨m, fun _ => 0, ρ⟩ fun r => ∀ c : Dev nD,
      r.2.mem ((c : Thread nD τ).loc main_v7) = Spec.result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c (hout c)), (h c).2⟩)
    (Value.run_blocks m ρ)

end Cert.KernelIdeal.FinalValue

end
-- ==== Proof.KernelPay.lean ====
/-
  The kernel body's arithmetic read at an index, at the extended reals.

  Every chunk of the key and value scratch is one projection of 256 rows of the input block,
  `x · W + b`; the result tile is the attention of 256 query rows (projected the same way) against the
  2048 key rows and value rows held in the two scratch buffers.
-/
import proofs.«109713_j73014444032668_2_alg».proof.Proof.Gen.KernelIdeal.Skeleton
import proofs.«109713_j73014444032668_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Attn

theorem d1_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem d1_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem d1_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem d1_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256,1024] × [1024,1024] product into zero, at (p, j): the sum over the shared axis. -/
theorem matmul_rows_cols (l : FVec Ideal S256x1024 .bf16) (r : FVec Ideal S1024x1024 .bf16) (p : Fin 256) (j : Fin 1024) :
    matmul dot_S256x1024_S1024x1024_S256x1024_1_0_0_1_n_n none l r (constant S256x1024 .f32 0x00000000#32) (ix2 p j)
      = ∑ k : Fin 1024, l (ix2 p k) * r (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p j) ((contrEquiv1 dot_S256x1024_S1024x1024_S256x1024_1_0_0_1_n_n 1024 rfl rfl).symm k) = ix2 p k :=
    funext fun a => Fin.ext (by
      match a with
      | ⟨0, _⟩ => exact d1_lhs_0 _ _
      | ⟨1, _⟩ => exact (d1_lhs_1 _ _).trans hk)
  have er : dot_S256x1024_S1024x1024_S256x1024_1_0_0_1_n_n.rhsIdx (ix2 p j) ((contrEquiv1 dot_S256x1024_S1024x1024_S256x1024_1_0_0_1_n_n 1024 rfl rfl).symm k) = ix2 k j :=
    funext fun a => Fin.ext (by
      match a with
      | ⟨0, _⟩ => exact (d1_rhs_0 _ _).trans hk
      | ⟨1, _⟩ => exact d1_rhs_1 _ _)
  rw [el, er]

theorem d2_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem d2_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem d2_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem d2_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- A [256,1024] × [2048,1024] product contracting both last axes, into zero, at (p, j): row p against row j. -/
theorem matmul_rows_rows (l : FVec Ideal S256x1024 .bf16) (r : FVec Ideal S2048x1024 .bf16) (p : Fin 256) (j : Fin 2048) :
    matmul dot_S256x1024_S2048x1024_S256x2048_1_1_0_0_n_n none l r (constant S256x2048 .f32 0x00000000#32) (ix2 p j)
      = ∑ k : Fin 1024, l (ix2 p k) * r (ix2 j k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p j) ((contrEquiv1 dot_S256x1024_S2048x1024_S256x2048_1_1_0_0_n_n 1024 rfl rfl).symm k) = ix2 p k :=
    funext fun a => Fin.ext (by
      match a with
      | ⟨0, _⟩ => exact d2_lhs_0 _ _
      | ⟨1, _⟩ => exact (d2_lhs_1 _ _).trans hk)
  have er : dot_S256x1024_S2048x1024_S256x2048_1_1_0_0_n_n.rhsIdx (ix2 p j) ((contrEquiv1 dot_S256x1024_S2048x1024_S256x2048_1_1_0_0_n_n 1024 rfl rfl).symm k) = ix2 j k :=
    funext fun a => Fin.ext (by
      match a with
      | ⟨0, _⟩ => exact d2_rhs_0 _ _
      | ⟨1, _⟩ => exact (d2_rhs_1 _ _).trans hk)
  rw [el, er]

theorem d3_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem d3_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem d3_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem d3_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A [256,2048] × [2048,1024] product into zero, at (p, j): the sum over the 2048 shared rows. -/
theorem matmul_weights_vals (l : FVec Ideal S256x2048 .bf16) (r : FVec Ideal S2048x1024 .bf16) (p : Fin 256) (j : Fin 1024) :
    matmul dot_S256x2048_S2048x1024_S256x1024_1_0_0_1_n_n none l r (constant S256x1024 .f32 0x00000000#32) (ix2 p j)
      = ∑ k : Fin 2048, l (ix2 p k) * r (ix2 k j) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p j) ((contrEquiv1 dot_S256x2048_S2048x1024_S256x1024_1_0_0_1_n_n 2048 rfl rfl).symm k) = ix2 p k :=
    funext fun a => Fin.ext (by
      match a with
      | ⟨0, _⟩ => exact d3_lhs_0 _ _
      | ⟨1, _⟩ => exact (d3_lhs_1 _ _).trans hk)
  have er : dot_S256x2048_S2048x1024_S256x1024_1_0_0_1_n_n.rhsIdx (ix2 p j) ((contrEquiv1 dot_S256x2048_S2048x1024_S256x1024_1_0_0_1_n_n 2048 rfl rfl).symm k) = ix2 k j :=
    funext fun a => Fin.ext (by
      match a with
      | ⟨0, _⟩ => exact (d3_rhs_0 _ _).trans hk
      | ⟨1, _⟩ => exact d3_rhs_1 _ _)
  rw [el, er]

/-- A chunk's projection at (r, e): row r of the chunk against column e of the weights, plus the bias. -/
theorem proj_apply (xc : Vec Ideal S1x256x1024 .bf16) (w : Vec Ideal S1024x1024 .bf16) (b : Vec Ideal S1x1024 .f32)
    (r : Fin 256) (e : Fin 1024) :
    k0_pay2 (F := Ideal) xc w b (ix2 r e)
      = projRow (fun d => xc (ix3 (0 : Fin 1) r d)) (fun d e => w (ix2 d e)) (fun e => b (ix2 (0 : Fin 1) e)) e := by
  unfold k0_pay2 k0_pay1
  rw [shapeCast_self]
  rw [truncf_apply, addf_apply, shapeCast_self, shapeCast_self, broadcastTo_1b_ab_apply, matmul_rows_cols]
  unfold projRow
  refine congrArg (· + b (ix2 (0 : Fin 1) e)) (Finset.sum_congr rfl fun d _ => ?_)
  rw [shapeCast_1ab_ab_apply]

end Cert.KernelIdeal.Pay

end
-- ==== Proof.KernelScratch.lean ====
/-
  What the first point of a batch leaves in the two scratch buffers: the key rows and the value rows of the
  whole input block.

  The body writes each buffer in eight slabs of 256 rows; slab c holds the projection of rows 256c … 256c+255
  of the block. All eight slabs are restrictions of ONE function of the buffer's index — row s of
  `x · W + b` — so the buffer, read back, is that function.
-/
import proofs.«109713_j73014444032668_2_alg».proof.Proof.Gen.KernelIdeal.Frame
import proofs.«109713_j73014444032668_2_alg».proof.Proof.KernelPay
import Idealize.ShloMosaic.Lib.Pipeline.Value

set_option maxRecDepth 16384

noncomputable section

namespace Cert.KernelIdeal.Scratch

open Cert.KernelIdeal Cert.KernelIdeal.Gen Idealize.ShloMosaic Idealize.ShloMosaic.ValueIdx Idealize.ShloMosaic.TcCoe
open Idealize.ShloMosaic.Tactic Idealize.SL.Sem Cert.Attn Cert.KernelIdeal.Pay

/-- Two rows of a projection agree when their inputs agree entry by entry. -/
theorem projRow_congr {x x' : Fin 1024 → EReal} {W W' : Fin 1024 → Fin 1024 → EReal} {b b' : Fin 1024 → EReal}
    {e e' : Fin 1024} (hx : ∀ d, x d = x' d) (hW : ∀ d, W d e = W' d e') (hb : b e = b' e') :
    projRow x W b e = projRow x' W' b' e' := by
  unfold projRow
  rw [hb]
  exact congrArg (· + b' e') (Finset.sum_congr rfl fun d _ => by rw [hx d, hW d])

/-- The projected rows of a block: entry (s, e) is row s of the block against column e of the weights, plus the bias. -/
def rowsOf (x0 : Vec Ideal S1x2048x1024 .bf16) (w : Vec Ideal S1024x1024 .bf16) (b : Vec Ideal S1x1024 .f32) :
    Vec Ideal S2048x1024 .bf16 := fun y =>
  projRow (fun d => x0 (ix3 (0 : Fin 1) (⟨(y 0).val, (y 0).isLt⟩ : Fin 2048) d)) (fun d e => w (ix2 d e))
    (fun e => b (ix2 (0 : Fin 1) e)) (⟨(y 1).val, (y 1).isLt⟩ : Fin 1024)

theorem rowsOf_apply (x0 : Vec Ideal S1x2048x1024 .bf16) (w : Vec Ideal S1024x1024 .bf16) (b : Vec Ideal S1x1024 .f32)
    (s : Fin 2048) (e : Fin 1024) :
    rowsOf x0 w b (ix2 s e)
      = projRow (fun d => x0 (ix3 (0 : Fin 1) s d)) (fun d e => w (ix2 d e)) (fun e => b (ix2 (0 : Fin 1) e)) e := rfl

/-- One slab: the projection of the 256 rows loaded at row offset `o`, at a slab index, is the projected rows of the
    block at the slab's place in the buffer. -/
theorem slab_eq (arg2 : Memref sig .tc .vmem S1x2048x1024 .bf16) (harg2 : arg2.IsWhole)
    (argW : Memref sig .tc .vmem S1024x1024 .bf16) (hargW : argW.IsWhole)
    (argB : Memref sig .tc .vmem S1x1024 .f32) (hargB : argB.IsWhole)
    (x0 : Vec Ideal S1x2048x1024 .bf16) (w : Vec Ideal S1024x1024 .bf16) (b : Vec Ideal S1x1024 .f32)
    (o : Nat) (inb3 : ∀ a, (![0, o, 0] : Fin 3 → Nat) a + S1x256x1024.size a ≤ S1x2048x1024.size a)
    (inb2 : ∀ a, (![o, 0] : Fin 2 → Nat) a + S256x1024.size a ≤ S2048x1024.size a)
    (inbW : ∀ a, (![0, 0] : Fin 2 → Nat) a + S1024x1024.size a ≤ S1024x1024.size a)
    (inbB : ∀ a, (![0, 0] : Fin 2 → Nat) a + S1x1024.size a ≤ S1x1024.size a)
    (x : (Rect.unit (s := S2048x1024) ![o, 0] S256x1024.size inb2).shape.Idx) :
    k0_pay2 (F := Ideal)
        (View.readAt (Elt Ideal) arg2.view (Rect.unit (s := S1x2048x1024) ![0, o, 0] S1x256x1024.size inb3).toLoadRect (harg2.unread x0))
        (View.readAt (Elt Ideal) argW.view (Rect.unit (s := S1024x1024) ![0, 0] S1024x1024.size inbW).toLoadRect (hargW.unread w))
        (View.readAt (Elt Ideal) argB.view (Rect.unit (s := S1x1024) ![0, 0] S1x1024.size inbB).toLoadRect (hargB.unread b)) x
      = rowsOf x0 w b ((Rect.unit (s := S2048x1024) ![o, 0] S256x1024.size inb2).emb x) := by
  obtain ⟨r, e, rfl⟩ : ∃ (r : Fin 256) (e : Fin 1024), x = ix2 r e := ⟨x 0, x 1, eq_ix2 x⟩
  rw [proj_apply]
  unfold rowsOf
  simp only [View.readAt_eq_ld, harg2.read_unread, hargW.read_unread, hargB.read_unread,
    View.ld_unit_zero (S := S1024x1024) rfl, View.ld_unit_zero (S := S1x1024) rfl]
  refine projRow_congr (fun d => ?_) (fun d => ?_) ?_
  · refine congrArg x0 (funext fun a => Fin.ext ?_)
    match a with
    | ⟨0, _⟩ => rfl
    | ⟨1, _⟩ => rfl
    | ⟨2, _⟩ => show 0 + 1 * d.val = d.val; omega
  · refine congrArg w (funext fun a => Fin.ext ?_)
    match a with
    | ⟨0, _⟩ => show 0 + 1 * d.val = d.val; omega
    | ⟨1, _⟩ => rfl
  · refine congrArg b (funext fun a => Fin.ext ?_)
    match a with
    | ⟨0, _⟩ => rfl
    | ⟨1, _⟩ => rfl

variable (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
  (x0 : Vec Ideal S1x2048x1024 .bf16) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32)

/-- After a batch's first point the key scratch holds the projected key rows of the whole block. -/
theorem keys_eq : sout0_A_0 (F := Ideal) c i arg2 harg2 arg3 harg3 arg4 harg4 arg5 harg5 arg6 harg6 arg7 harg7 arg8 harg8 arg9 harg9 arg10 harg10 arg11 harg11 hc0 x0 x1 x2 x3 x4 x5 x6 = rowsOf x0 x3 x4 := by
  funext y
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  refine View.canon_apply_of_pieces (rowsOf x0 x3 x4) _ ?_ y (scover0_A_0 c i arg2 harg2 arg3 harg3 arg4 harg4 arg5 harg5 arg6 harg6 arg7 harg7 arg8 harg8 arg9 harg9 arg10 harg10 arg11 harg11 hc0 x0 x1 x2 x3 x4 x5 x6 y)
  unfold kernelRun0_A
  dsimp only
  sl_unfold_run_names
  intro p hp
  simp only [List.mem_cons, List.not_mem_nil, or_false] at hp
  rcases hp with rfl | rfl | rfl | rfl | rfl | rfl | rfl | rfl
  all_goals intro x
  · exact slab_eq arg2 harg2 arg5 harg5 arg6 harg6 x0 x3 x4 1792 inb_S1x2048x1024_S1x256x1024_0_1792_0 inb_S2048x1024_S256x1024_1792_0 inb_S1024x1024_S1024x1024_0_0 inb_S1x1024_S1x1024_0_0 x
  · exact slab_eq arg2 harg2 arg5 harg5 arg6 harg6 x0 x3 x4 1536 inb_S1x2048x1024_S1x256x1024_0_1536_0 inb_S2048x1024_S256x1024_1536_0 inb_S1024x1024_S1024x1024_0_0 inb_S1x1024_S1x1024_0_0 x
  · exact slab_eq arg2 harg2 arg5 harg5 arg6 harg6 x0 x3 x4 1280 inb_S1x2048x1024_S1x256x1024_0_1280_0 inb_S2048x1024_S256x1024_1280_0 inb_S1024x1024_S1024x1024_0_0 inb_S1x1024_S1x1024_0_0 x
  · exact slab_eq arg2 harg2 arg5 harg5 arg6 harg6 x0 x3 x4 1024 inb_S1x2048x1024_S1x256x1024_0_1024_0 inb_S2048x1024_S256x1024_1024_0 inb_S1024x1024_S1024x1024_0_0 inb_S1x1024_S1x1024_0_0 x
  · exact slab_eq arg2 harg2 arg5 harg5 arg6 harg6 x0 x3 x4 768 inb_S1x2048x1024_S1x256x1024_0_768_0 inb_S2048x1024_S256x1024_768_0 inb_S1024x1024_S1024x1024_0_0 inb_S1x1024_S1x1024_0_0 x
  · exact slab_eq arg2 harg2 arg5 harg5 arg6 harg6 x0 x3 x4 512 inb_S1x2048x1024_S1x256x1024_0_512_0 inb_S2048x1024_S256x1024_512_0 inb_S1024x1024_S1024x1024_0_0 inb_S1x1024_S1x1024_0_0 x
  · exact slab_eq arg2 harg2 arg5 harg5 arg6 harg6 x0 x3 x4 256 inb_S1x2048x1024_S1x256x1024_0_256_0 inb_S2048x1024_S256x1024_256_0 inb_S1024x1024_S1024x1024_0_0 inb_S1x1024_S1x1024_0_0 x
  · exact slab_eq arg2 harg2 arg5 harg5 arg6 harg6 x0 x3 x4 0 inb_S1x2048x1024_S1x256x1024_0_0_0 inb_S2048x1024_S256x1024_0_0 inb_S1024x1024_S1024x1024_0_0 inb_S1x1024_S1x1024_0_0 x

/-- … and the value scratch the projected value rows. -/
theorem vals_eq : sout0_A_1 (F := Ideal) c i arg2 harg2 arg3 harg3 arg4 harg4 arg5 harg5 arg6 harg6 arg7 harg7 arg8 harg8 arg9 harg9 arg10 harg10 arg11 harg11 hc0 x0 x1 x2 x3 x4 x5 x6 = rowsOf x0 x5 x6 := by
  funext y
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  refine View.canon_apply_of_pieces (rowsOf x0 x5 x6) _ ?_ y (scover0_A_1 c i arg2 harg2 arg3 harg3 arg4 harg4 arg5 harg5 arg6 harg6 arg7 harg7 arg8 harg8 arg9 harg9 arg10 harg10 arg11 harg11 hc0 x0 x1 x2 x3 x4 x5 x6 y)
  unfold kernelRun0_A
  dsimp only
  sl_unfold_run_names
  intro p hp
  simp only [List.mem_cons, List.not_mem_nil, or_false] at hp
  rcases hp with rfl | rfl | rfl | rfl | rfl | rfl | rfl | rfl
  all_goals intro x
  · exact slab_eq arg2 harg2 arg7 harg7 arg8 harg8 x0 x5 x6 1792 inb_S1x2048x1024_S1x256x1024_0_1792_0 inb_S2048x1024_S256x1024_1792_0 inb_S1024x1024_S1024x1024_0_0 inb_S1x1024_S1x1024_0_0 x
  · exact slab_eq arg2 harg2 arg7 harg7 arg8 harg8 x0 x5 x6 1536 inb_S1x2048x1024_S1x256x1024_0_1536_0 inb_S2048x1024_S256x1024_1536_0 inb_S1024x1024_S1024x1024_0_0 inb_S1x1024_S1x1024_0_0 x
  · exact slab_eq arg2 harg2 arg7 harg7 arg8 harg8 x0 x5 x6 1280 inb_S1x2048x1024_S1x256x1024_0_1280_0 inb_S2048x1024_S256x1024_1280_0 inb_S1024x1024_S1024x1024_0_0 inb_S1x1024_S1x1024_0_0 x
  · exact slab_eq arg2 harg2 arg7 harg7 arg8 harg8 x0 x5 x6 1024 inb_S1x2048x1024_S1x256x1024_0_1024_0 inb_S2048x1024_S256x1024_1024_0 inb_S1024x1024_S1024x1024_0_0 inb_S1x1024_S1x1024_0_0 x
  · exact slab_eq arg2 harg2 arg7 harg7 arg8 harg8 x0 x5 x6 768 inb_S1x2048x1024_S1x256x1024_0_768_0 inb_S2048x1024_S256x1024_768_0 inb_S1024x1024_S1024x1024_0_0 inb_S1x1024_S1x1024_0_0 x
  · exact slab_eq arg2 harg2 arg7 harg7 arg8 harg8 x0 x5 x6 512 inb_S1x2048x1024_S1x256x1024_0_512_0 inb_S2048x1024_S256x1024_512_0 inb_S1024x1024_S1024x1024_0_0 inb_S1x1024_S1x1024_0_0 x
  · exact slab_eq arg2 harg2 arg7 harg7 arg8 harg8 x0 x5 x6 256 inb_S1x2048x1024_S1x256x1024_0_256_0 inb_S2048x1024_S256x1024_256_0 inb_S1024x1024_S1024x1024_0_0 inb_S1x1024_S1x1024_0_0 x
  · exact slab_eq arg2 harg2 arg7 harg7 arg8 harg8 x0 x5 x6 0 inb_S1x2048x1024_S1x256x1024_0_0_0 inb_S2048x1024_S256x1024_0_0 inb_S1024x1024_S1024x1024_0_0 inb_S1x1024_S1x1024_0_0 x

end Cert.KernelIdeal.Scratch

end
-- ==== Proof.KernelTile.lean ====
/-
  The result tile of the kernel body, read at an index, at the extended reals.

  For 256 query rows the body projects the rows (x · Wq + bq), takes their scores against the 2048 key
  rows times 1/32, subtracts each row's maximum, exponentiates, and divides the exponentials' combination
  of the 2048 value rows by the exponentials' sum.  Read at (u, r, e) that is the specification's result
  row of the scores of row r, at e.
-/
import proofs.«109713_j73014444032668_2_alg».proof.Proof.KernelPay
import proofs.«109713_j73014444032668_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Attn
open Cert.KernelIdeal.Pay

/-! ### A vector as a column, and a column over many columns -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two reductions along a row -/

/-- The maximum reduction of a [256, 2048] tile along its rows, at r: the row's maximum folded from minus infinity. -/
theorem rowmax_apply (S : FVec Ideal S256x2048 .f32) (hφ : FKind.Formats .f32)
    (hacc : (0xFF800000#32 : BitVec 32) = FKind.maximumf.neutral .f32 hφ) (r : Fin 256) :
    multiReduction .maximumf [1] S256 S 0xFF800000#32 reduces_S256x2048_S256 hφ hacc (ix1 r)
      = rowMax (fun t => S (ix2 r t)) := by
  refine (Ideal.multiReduction_maximumf_single S _ reduces_S256x2048_S256 hφ hacc (ix1 r)).trans ?_
  have hl : (S ∘ reduces_S256x2048_S256.lift (ix1 r)) = fun t : Fin 2048 => S (ix2 r t) :=
    funext fun t => congrArg S (funext fun a => Fin.ext (by
      match a with
      | ⟨0, _⟩ => rfl
      | ⟨1, _⟩ => rfl))
  unfold rowMax
  exact congrArg (fun f => (Finset.univ : Finset (Fin 2048)).fold max negInf f) hl

/-- The sum reduction of a [256, 2048] tile along its rows, at r: the sum of the row. -/
theorem rowsum_apply (E : FVec Ideal S256x2048 .f32) (hφ : FKind.Formats .f32)
    (hacc : (0x00000000#32 : BitVec 32) = FKind.add.neutral .f32 hφ) (r : Fin 256) :
    multiReduction .add [1] S256 E 0x00000000#32 reduces_S256x2048_S256 hφ hacc (ix1 r)
      = ∑ t : Fin 2048, E (ix2 r t) := by
  refine (Ideal.multiReduction_add_single E _ reduces_S256x2048_S256 hφ hacc (ix1 r)).trans ?_
  refine Finset.sum_congr rfl fun t _ => congrArg E (funext fun a => Fin.ext (by
    match a with
    | ⟨0, _⟩ => rfl
    | ⟨1, _⟩ => rfl))

/-! ### The tile as a composition -/

/-- The projected query rows: x · Wq + bq for the 256 rows of the block. -/
def tileQ (v6 : Vec Ideal S1x256x1024 .bf16) (v8 : Vec Ideal S1024x1024 .bf16) (v11 : Vec Ideal S1x1024 .f32) :
    FVec Ideal S256x1024 .bf16 :=
  have v7 : FVec Ideal S256x1024 .bf16 := shapeCast S256x1024 v6 shapeCasts_S1x256x1024_S256x1024
  have v9 : FVec Ideal S1024x1024 .bf16 := shapeCast S1024x1024 v8 shapeCasts_S1024x1024_S1024x1024
  have cst : FVec Ideal S256x1024 .f32 := constant S256x1024 .f32 0x00000000#32
  have v10 : FVec Ideal S256x1024 .f32 := matmul dot_S256x1024_S1024x1024_S256x1024_1_0_0_1_n_n none v7 v9 cst
  have v12 : FVec Ideal S1x1024 .f32 := shapeCast S1x1024 v11 shapeCasts_S1x1024_S1x1024
  have v13 : FVec Ideal S256x1024 .f32 := broadcastTo S256x1024 v12 broadcasts_S1x1024_S256x1024
  have v14 : FVec Ideal S256x1024 .f32 := addf v10 v13
  truncf .bf16 v14 bitsLt_bf16_f32

/-- The scores of the 256 query rows against the 2048 key rows, times 1/32. -/
def tileScores (q : FVec Ideal S256x1024 .bf16) (v16 : Vec Ideal S2048x1024 .bf16) : FVec Ideal S256x2048 .f32 :=
  have k : FVec Ideal S2048x1024 .bf16 := v16
  have cst_8 : FVec Ideal S256x2048 .f32 := constant S256x2048 .f32 0x00000000#32
  have v17 : FVec Ideal S256x2048 .f32 := matmul dot_S256x1024_S2048x1024_S256x2048_1_1_0_0_n_n none q k cst_8
  have cst_9 : Ideal .f32 := Scalar.ofBits .f32 0x3D000000#32
  have v18 : FVec Ideal S256x2048 .f32 := broadcast S256x2048 cst_9
  mulf v17 v18

/-- The maxima of the rows of a score tile. -/
def tileMax (S : FVec Ideal S256x2048 .f32) : FVec Ideal S256 .f32 :=
  multiReduction .maximumf [1] S256 S 0xFF800000#32 reduces_S256x2048_S256 (.inl rfl) rfl

/-- The sums of the rows of a tile. -/
def tileSum (E : FVec Ideal S256x2048 .f32) : FVec Ideal S256 .f32 :=
  multiReduction .add [1] S256 E 0x00000000#32 reduces_S256x2048_S256 (.inl rfl) rfl

/-- The exponentials of the scores shifted by their row's maximum. -/
def tileExp (S : FVec Ideal S256x2048 .f32) : FVec Ideal S256x2048 .f32 :=
  have v21 : FVec Ideal S256x1 .f32 := shapeCast S256x1 (tileMax S) shapeCasts_S256_S256x1
  have v22 : FVec Ideal S256x2048 .f32 := broadcastTo S256x2048 v21 broadcasts_S256x1_S256x2048
  have v23 : FVec Ideal S256x2048 .f32 := subf S v22
  exp v23

/-- The exponentials' combination of the value rows, divided by the exponentials' row sums. -/
def tileOut (E : FVec Ideal S256x2048 .f32) (v28 : Vec Ideal S2048x1024 .bf16) : FVec Ideal S1x256x1024 .f32 :=
  have v : FVec Ideal S2048x1024 .bf16 := v28
  have v26 : FVec Ideal S256x1 .f32 := shapeCast S256x1 (tileSum E) shapeCasts_S256_S256x1
  have v27 : FVec Ideal S256x2048 .bf16 := truncf .bf16 E bitsLt_bf16_f32
  have cst_14 : FVec Ideal S256x1024 .f32 := constant S256x1024 .f32 0x00000000#32
  have v29 : FVec Ideal S256x1024 .f32 := matmul dot_S256x2048_S2048x1024_S256x1024_1_0_0_1_n_n none v27 v cst_14
  have v30 : FVec Ideal S256x1024 .f32 := broadcastTo S256x1024 v26 broadcasts_S256x1_S256x1024
  have v31 : FVec Ideal S256x1024 .f32 := divf v29 v30
  shapeCast S1x256x1024 v31 shapeCasts_S256x1024_S1x256x1024

/-- The body's result tile is that composition. -/
theorem pay30_eq (v6 : Vec Ideal S1x256x1024 .bf16) (v8 : Vec Ideal S1024x1024 .bf16) (v11 : Vec Ideal S1x1024 .f32)
    (v16 v28 : Vec Ideal S2048x1024 .bf16) :
    k0_pay30 (F := Ideal) v6 v8 v11 v16 v28 = tileOut (tileExp (tileScores (tileQ v6 v8 v11) v16)) v28 := rfl

/-- The maximum of row r of a score tile. -/
theorem tileMax_apply (S : FVec Ideal S256x2048 .f32) (r : Fin 256) :
    tileMax S (ix1 r) = rowMax (fun t => S (ix2 r t)) := rowmax_apply S _ _ r

/-- The sum of row r of a tile. -/
theorem tileSum_apply (E : FVec Ideal S256x2048 .f32) (r : Fin 256) :
    tileSum E (ix1 r) = ∑ t : Fin 2048, E (ix2 r t) := rowsum_apply E _ _ r

/-! ### Each stage at an index -/

/-- A projected query row at (r, e). -/
theorem tileQ_apply (v6 : Vec Ideal S1x256x1024 .bf16) (v8 : Vec Ideal S1024x1024 .bf16) (v11 : Vec Ideal S1x1024 .f32)
    (r : Fin 256) (e : Fin 1024) :
    tileQ v6 v8 v11 (ix2 r e)
      = projRow (fun d => v6 (ix3 (0 : Fin 1) r d)) (fun d e => v8 (ix2 d e)) (fun e => v11 (ix2 (0 : Fin 1) e)) e := by
  have h : k0_pay2 (F := Ideal) v6 v8 v11 = tileQ v6 v8 v11 := by
    show shapeCast S256x1024 (tileQ v6 v8 v11) shapeCasts_S256x1024_S256x1024 = _
    exact shapeCast_self _ _
  rw [← h, proj_apply]

/-- A score at (r, t): query row r against key row t, times the factor. -/
theorem tileScores_apply (q : FVec Ideal S256x1024 .bf16) (v16 : Vec Ideal S2048x1024 .bf16) (r : Fin 256) (t : Fin 2048) :
    tileScores q v16 (ix2 r t) = scoreRow (fun e => q (ix2 r e)) (fun t e' => v16 (ix2 t e')) scale t := by
  unfold tileScores
  rw [mulf_apply, broadcast_apply, matmul_rows_rows]
  rfl

/-- A shifted exponential at (r, t). -/
theorem tileExp_apply (S : FVec Ideal S256x2048 .f32) (r : Fin 256) (t : Fin 2048) :
    tileExp S (ix2 r t) = expo (fun t => S (ix2 r t)) t := by
  unfold tileExp
  show Ideal.exp (subf S _ (ix2 r t)) = _
  rw [subf_apply, broadcastTo_a1_ab_apply, shapeCast_a_a1_apply, tileMax_apply]
  rfl

/-- The result at (u, r, e): the specification's result row of the exponentials of row r. -/
theorem tileOut_exp_apply (S : FVec Ideal S256x2048 .f32) (V : Vec Ideal S2048x1024 .bf16)
    (u : Fin 1) (r : Fin 256) (e : Fin 1024) :
    tileOut (tileExp S) V (ix3 u r e) = outRow (fun t => S (ix2 r t)) (fun t e => V (ix2 t e)) e := by
  unfold tileOut
  rw [shapeCast_ab_1ab_apply, divf_apply, matmul_weights_vals, broadcastTo_a1_ab_apply, shapeCast_a_a1_apply,
    tileSum_apply]
  unfold outRow rowSum
  refine congrArg₂ Ideal.div (Finset.sum_congr rfl fun t _ => ?_) (Finset.sum_congr rfl fun t _ => tileExp_apply S r t)
  rw [truncf_apply, tileExp_apply]

/-- The body's result tile at (u, r, e) is the specification's attention row: the query row is row r of the block
    projected, the key and value rows are the two scratch buffers' rows. -/
theorem tile_apply (v6 : Vec Ideal S1x256x1024 .bf16) (v8 : Vec Ideal S1024x1024 .bf16) (v11 : Vec Ideal S1x1024 .f32)
    (v16 v28 : Vec Ideal S2048x1024 .bf16) (u : Fin 1) (r : Fin 256) (e : Fin 1024) :
    k0_pay30 (F := Ideal) v6 v8 v11 v16 v28 (ix3 u r e)
      = outRow (scoreRow (projRow (fun d => v6 (ix3 (0 : Fin 1) r d)) (fun d e => v8 (ix2 d e)) (fun e => v11 (ix2 (0 : Fin 1) e)))
          (fun t e' => v16 (ix2 t e')) scale) (fun t e => v28 (ix2 t e)) e := by
  rw [pay30_eq, tileOut_exp_apply]
  have hS : (fun t => tileScores (tileQ v6 v8 v11) v16 (ix2 r t))
      = scoreRow (projRow (fun d => v6 (ix3 (0 : Fin 1) r d)) (fun d e => v8 (ix2 d e)) (fun e => v11 (ix2 (0 : Fin 1) e)))
          (fun t e' => v16 (ix2 t e')) scale :=
    funext fun t => by
      rw [tileScores_apply]
      exact congrArg (fun q => scoreRow q (fun t e' => v16 (ix2 t e')) scale t) (funext fun e => tileQ_apply v6 v8 v11 r e)
  rw [hS]

end Cert.KernelIdeal.Tile

end
-- ==== Proof.KernelRows.lean ====
/-
  One result row of a block: query row `s` of the block, projected, against given key rows and value rows.
-/
import proofs.«109713_j73014444032668_2_alg».proof.KernelIdeal
import proofs.«109713_j73014444032668_2_alg».proof.Proof.AttnSpec
import Idealize.ShloMosaic.Lib.ValueIdx

noncomputable section

namespace Cert.KernelIdeal.Out

open Cert.KernelIdeal Idealize.ShloMosaic Idealize.ShloMosaic.ValueIdx Cert.Attn

/-- A result row from the block: query row `s` of the block against the key rows `K` and value rows `V`. -/
def tileRow (x0 : Vec Ideal S1x2048x1024 .bf16) (wq : Vec Ideal S1024x1024 .bf16) (bq : Vec Ideal S1x1024 .f32)
    (K V : Vec Ideal S2048x1024 .bf16) (s : Fin 2048) (e : Fin 1024) : EReal :=
  outRow (scoreRow (projRow (fun d => x0 (ix3 (0 : Fin 1) s d)) (fun d e => wq (ix2 d e)) (fun e => bq (ix2 (0 : Fin 1) e)))
    (fun t e' => K (ix2 t e')) scale) (fun t e => V (ix2 t e)) e

end Cert.KernelIdeal.Out

end
-- ==== Proof.KernelOut.lean ====
/-
  What the body leaves in the result tile at a grid point: the attention of the tile's 256 query rows against
  the 2048 key rows and value rows of the whole block.

  At a batch's first point the keys and values are the ones the point has just written into the scratch; at a
  later point they are whatever the scratch held when the point began.
-/
import proofs.«109713_j73014444032668_2_alg».proof.Proof.KernelScratch
import proofs.«109713_j73014444032668_2_alg».proof.Proof.KernelTile
import proofs.«109713_j73014444032668_2_alg».proof.Proof.KernelRows

set_option maxRecDepth 16384

noncomputable section

namespace Cert.KernelIdeal.Out

open Cert.KernelIdeal Cert.KernelIdeal.Gen Idealize.ShloMosaic Idealize.ShloMosaic.ValueIdx Idealize.ShloMosaic.TcCoe
open Idealize.ShloMosaic.Tactic Idealize.SL.Sem Cert.Attn Cert.KernelIdeal.Pay Cert.KernelIdeal.Scratch Cert.KernelIdeal.Tile

variable (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole)
  (x0 : Vec Ideal S1x2048x1024 .bf16) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32)

/-- The body's tile payload on loaded operands: the query rows are the 256 rows of the block at row offset `q`. -/
theorem payload_apply (K V : Vec Ideal S2048x1024 .bf16) (q : ℕ) (h0 : k0_off1 i 0 = 0) (h1 : k0_off1 i 1 = q) (h2 : k0_off1 i 2 = 0)
    (hq : q + 256 ≤ 2048) (u : Fin 1) (r : Fin 256) (e : Fin 1024) :
    k0_pay30 (F := Ideal)
        (View.readAt (Elt Ideal) arg2.view (Rect.unit (s := S1x2048x1024) (k0_off1 i) S1x256x1024.size (k0_off1_inb i)).toLoadRect (harg2.unread x0))
        (View.readAt (Elt Ideal) arg3.view (Rect.unit (s := S1024x1024) ![0, 0] S1024x1024.size inb_S1024x1024_S1024x1024_0_0).toLoadRect (harg3.unread x1))
        (View.readAt (Elt Ideal) arg4.view (Rect.unit (s := S1x1024) ![0, 0] S1x1024.size inb_S1x1024_S1x1024_0_0).toLoadRect (harg4.unread x2))
        K V (ix3 u r e)
      = tileRow x0 x1 x2 K V (⟨q + r.val, by have := r.isLt; omega⟩ : Fin 2048) e := by
  rw [tile_apply]
  unfold tileRow
  simp only [View.readAt_eq_ld, harg2.read_unread, harg3.read_unread, harg4.read_unread]
  refine congrArg (fun row => outRow (scoreRow row (fun t e' => K (ix2 t e')) scale) (fun t e => V (ix2 t e)) e) ?_
  funext e'
  refine projRow_congr (fun d => ?_) (fun d => ?_) ?_
  · refine congrArg x0 (funext fun a => Fin.ext ?_)
    match a with
    | ⟨0, _⟩ => show k0_off1 i 0 + 1 * 0 = 0; omega
    | ⟨1, _⟩ => show k0_off1 i 1 + 1 * r.val = q + r.val; omega
    | ⟨2, _⟩ => show k0_off1 i 2 + 1 * d.val = d.val; omega
  · refine congrArg x1 (funext fun a => Fin.ext ?_)
    match a with
    | ⟨0, _⟩ => show 0 + 1 * d.val = d.val; omega
    | ⟨1, _⟩ => show 0 + 1 * e'.val = e'.val; omega
  · refine congrArg x2 (funext fun a => Fin.ext ?_)
    match a with
    | ⟨0, _⟩ => rfl
    | ⟨1, _⟩ => show 0 + 1 * e'.val = e'.val; omega

/-- The stores of a batch's first point, read back as one function, are the projected key rows … -/
theorem keys_canon (hc0 : cond0_0 i) : View.canon (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.1 = rowsOf x0 x3 x4 :=
  (View.read_writes_eq_canon VS0_0 VS0_0.junk _ (scover0_A_0 c i arg2 harg2 arg3 harg3 arg4 harg4 arg5 harg5 arg6 harg6 arg7 harg7 arg8 harg8 arg9 harg9 arg10 harg10 arg11 harg11 hc0 x0 x1 x2 x3 x4 x5 x6)).symm.trans (keys_eq c i arg2 harg2 arg3 harg3 arg4 harg4 arg5 harg5 arg6 harg6 arg7 harg7 arg8 harg8 arg9 harg9 arg10 harg10 arg11 harg11 hc0 x0 x1 x2 x3 x4 x5 x6)

/-- … and the projected value rows. -/
theorem vals_canon (hc0 : cond0_0 i) : View.canon (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.2.1 = rowsOf x0 x5 x6 :=
  (View.read_writes_eq_canon VS0_1 VS0_1.junk _ (scover0_A_1 c i arg2 harg2 arg3 harg3 arg4 harg4 arg5 harg5 arg6 harg6 arg7 harg7 arg8 harg8 arg9 harg9 arg10 harg10 arg11 harg11 hc0 x0 x1 x2 x3 x4 x5 x6)).symm.trans (vals_eq c i arg2 harg2 arg3 harg3 arg4 harg4 arg5 harg5 arg6 harg6 arg7 harg7 arg8 harg8 arg9 harg9 arg10 harg10 arg11 harg11 hc0 x0 x1 x2 x3 x4 x5 x6)

/-- The result tile of a batch's first point. -/
theorem first_apply (hc0 : cond0_0 i) (q : ℕ) (h0 : k0_off1 i 0 = 0) (h1 : k0_off1 i 1 = q) (h2 : k0_off1 i 2 = 0)
    (hq : q + 256 ≤ 2048) (u : Fin 1) (r : Fin 256) (e : Fin 1024) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix3 u r e)
      = tileRow x0 x1 x2 (rowsOf x0 x3 x4) (rowsOf x0 x5 x6) (⟨q + r.val, by have := r.isLt; omega⟩ : Fin 2048) e := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  have hK := keys_canon c i arg2 harg2 arg3 harg3 arg4 harg4 arg5 harg5 arg6 harg6 arg7 harg7 arg8 harg8 arg9 harg9 arg10 harg10 arg11 harg11 x0 x1 x2 x3 x4 x5 x6 hc0
  have hV := vals_canon c i arg2 harg2 arg3 harg3 arg4 harg4 arg5 harg5 arg6 harg6 arg7 harg7 arg8 harg8 arg9 harg9 arg10 harg10 arg11 harg11 x0 x1 x2 x3 x4 x5 x6 hc0
  have cK := scover0_A_0 (F := Ideal) c i arg2 harg2 arg3 harg3 arg4 harg4 arg5 harg5 arg6 harg6 arg7 harg7 arg8 harg8 arg9 harg9 arg10 harg10 arg11 harg11 hc0 x0 x1 x2 x3 x4 x5 x6
  have cV := scover0_A_1 (F := Ideal) c i arg2 harg2 arg3 harg3 arg4 harg4 arg5 harg5 arg6 harg6 arg7 harg7 arg8 harg8 arg9 harg9 arg10 harg10 arg11 harg11 hc0 x0 x1 x2 x3 x4 x5 x6
  unfold kernelRun0_A at hK hV cK cV ⊢
  dsimp only at hK hV cK cV ⊢
  have hz3 : (![0, 0, 0] : Fin 3 → ℕ) = fun _ => 0 := by
    funext a
    match a with
    | ⟨0, _⟩ => rfl
    | ⟨1, _⟩ => rfl
    | ⟨2, _⟩ => rfl
  have hz2 : (![0, 0] : Fin 2 → ℕ) = fun _ => 0 := by
    funext a
    match a with
    | ⟨0, _⟩ => rfl
    | ⟨1, _⟩ => rfl
  rw [View.canon_unit_zero hz3]
  unfold kernelRun0_A.sl.r_9 kernelRun0_A.sl.v16 kernelRun0_A.sl.v28
  rw [View.readCov_eq_canon_ld _ _ _ cK, View.readCov_eq_canon_ld _ _ _ cV, hK, hV,
    View.ld_unit_zero (S := S2048x1024) hz2, View.ld_unit_zero (S := S2048x1024) hz2]
  exact payload_apply i arg2 harg2 arg3 harg3 arg4 harg4 x0 x1 x2 _ _ q h0 h1 h2 hq u r e

/-- The result tile of a later point of the batch, over what the scratch buffers held when the point began. -/
theorem later_apply (hc0 : ¬cond0_0 i) (xs0 xs1 : Vec Ideal S2048x1024 .bf16) (q : ℕ) (h0 : k0_off1 i 0 = 0)
    (h1 : k0_off1 i 1 = q) (h2 : k0_off1 i 2 = 0) (hq : q + 256 ≤ 2048) (u : Fin 1) (r : Fin 256) (e : Fin 1024) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xs0 xs1 (ix3 u r e)
      = tileRow x0 x1 x2 xs0 xs1 (⟨q + r.val, by have := r.isLt; omega⟩ : Fin 2048) e := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_run_names
  have hz3 : (![0, 0, 0] : Fin 3 → ℕ) = fun _ => 0 := by
    funext a
    match a with
    | ⟨0, _⟩ => rfl
    | ⟨1, _⟩ => rfl
    | ⟨2, _⟩ => rfl
  have hz2 : (![0, 0] : Fin 2 → ℕ) = fun _ => 0 := by
    funext a
    match a with
    | ⟨0, _⟩ => rfl
    | ⟨1, _⟩ => rfl
  rw [View.canon_unit_zero hz3]
  have eK : View.readAt (Elt Ideal) arg10.view (Rect.unit (s := S2048x1024) ![0, 0] S2048x1024.size inb_S2048x1024_S2048x1024_0_0).toLoadRect (harg10.unread xs0) = xs0 := by
    rw [View.readAt_eq_ld, harg10.read_unread, View.ld_unit_zero (S := S2048x1024) hz2]
  have eV : View.readAt (Elt Ideal) arg11.view (Rect.unit (s := S2048x1024) ![0, 0] S2048x1024.size inb_S2048x1024_S2048x1024_0_0).toLoadRect (harg11.unread xs1) = xs1 := by
    rw [View.readAt_eq_ld, harg11.read_unread, View.ld_unit_zero (S := S2048x1024) hz2]
  rw [eK, eV]
  exact payload_apply i arg2 harg2 arg3 harg3 arg4 harg4 x0 x1 x2 _ _ q h0 h1 h2 hq u r e

end Cert.KernelIdeal.Out

end
-- ==== Proof.KernelBlocks.lean ====
/-
  The input windows' blocks in terms of the argument arrays, at the extended-real instance.

  Before the pipelined region the program narrows x and the three weight matrices to bf16 and lays each bias
  vector out as a 1 × 1024 row. At the extended reals a narrowing is the identity, and the row layout of a
  vector reads entry e at (0, e). The region's grid is 4 × 8, point t = 8·b + q. Window 0 stages the block
  [1, 2048, 1024] of x at block index (b, 0, 0), so its element (u, s, d) is x at (t / 8, s, d); windows 1 to 6
  stage whole arrays at block index 0, so their elements are the arguments' own. An element of a block sits in
  the array, on each axis, at block index × block size + its coordinate; the block indices are decided once
  over the 32 grid points.
-/
import proofs.«109713_j73014444032668_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-! ## Window 0: x, one batch per block -/

/-- The array window 0 stages is argument 0 narrowed to bf16, which at the extended reals changes nothing. -/
theorem V_v0 (c : Dev nD) : (V m c main_v0 : S4x2048x1024.Idx → EReal) = m ((c.tc : Thread nD τ).loc main_arg0) := by
  dsimp only [Gen.V, Gen.hostOps0]
  after_results
  rfl

/-- Window 0's block index at point t is (t / 8, 0, 0): the batch, and the whole of the other two axes. -/
theorem idx0_facts : ∀ t : Fin cfg0.N, win0_0.index t (0 : Fin 3) = t.val / 8 ∧ win0_0.index t (1 : Fin 3) = 0 ∧ win0_0.index t (2 : Fin 3) = 0 :=
  (by decide +kernel : ∀ t : Fin grid0.N, _)

/-- Window 0's block at point t, read at (u, s, d), is argument 0 at (t / 8, s, d). -/
theorem blk0_apply (c : Dev nD) (t : Fin cfg0.N) (u : Fin 1) (s : Fin 2048) (d : Fin 1024) :
    iblk m c 0 t (ix3 u s d) = m ((c.tc : Thread nD τ).loc main_arg0)
      (ix3 (⟨t.val / 8, by have := t.isLt; have : cfg0.N = 32 := N_0; omega⟩ : Fin 4) s d) := by
  unfold iblk
  show V m c main_v0 (((cfg0.win 0).blk t).view.emb (ix3 u s d)) = _
  rw [V_v0]
  refine congrArg _ ?_
  obtain ⟨e0, e1, e2⟩ := idx0_facts t
  funext a; apply Fin.ext
  match a with
  | ⟨0, _⟩ => show win0_0.index t (0 : Fin 3) * 1 + 1 * u.val = t.val / 8; omega
  | ⟨1, _⟩ => show win0_0.index t (1 : Fin 3) * 2048 + 1 * s.val = s.val; omega
  | ⟨2, _⟩ => show win0_0.index t (2 : Fin 3) * 1024 + 1 * d.val = d.val; omega

/-- Within a batch the block does not move: at a point that is not the first of its batch, window 0's block is
    the block of the point before, since (t - 1) / 8 = t / 8 when 8 does not divide t. -/
theorem blk0_prev (c : Dev nD) (t : Fin cfg0.N) (h : ¬ t.val % 8 = 0) :
    (iblk m c 0 t : Vec Ideal S1x2048x1024 .bf16) = iblk m c 0 ⟨t.val - 1, by have := t.isLt; omega⟩ := by
  funext j
  rw [eq_ix3 j]
  refine (blk0_apply m c t _ _ _).trans (Eq.trans ?_ (blk0_apply m c ⟨t.val - 1, by have := t.isLt; omega⟩ _ _ _).symm)
  refine congrArg _ (congrArg (fun q => ix3 q (j 1) (j 2)) (Fin.ext ?_))
  show t.val / 8 = (t.val - 1) / 8
  omega

/-! ## Windows 1, 3, 5: the weight matrices, whole -/

/-- The array window 1 stages is argument 1 narrowed to bf16, which at the extended reals changes nothing. -/
theorem V_v1 (c : Dev nD) : (V m c main_v1 : S1024x1024.Idx → EReal) = m ((c.tc : Thread nD τ).loc main_arg1) := by
  dsimp only [Gen.V, Gen.hostOps0]
  after_results
  rfl

/-- Window 1's block index is (0, 0) at every grid point: its block is the whole array. -/
theorem idx1_facts : ∀ t : Fin cfg0.N, win0_1.index t (0 : Fin 2) = 0 ∧ win0_1.index t (1 : Fin 2) = 0 :=
  (by decide +kernel : ∀ t : Fin grid0.N, _)

/-- Window 1's block at any grid point, read at (d, e), is argument 1 at (d, e). -/
theorem blk1_apply (c : Dev nD) (t : Fin cfg0.N) (d e : Fin 1024) :
    iblk m c 1 t (ix2 d e) = m ((c.tc : Thread nD τ).loc main_arg1) (ix2 d e) := by
  unfold iblk
  show V m c main_v1 (((cfg0.win 1).blk t).view.emb (ix2 d e)) = _
  rw [V_v1]
  refine congrArg _ ?_
  obtain ⟨e0, e1⟩ := idx1_facts t
  funext a; apply Fin.ext
  match a with
  | ⟨0, _⟩ => show win0_1.index t (0 : Fin 2) * 1024 + 1 * d.val = d.val; omega
  | ⟨1, _⟩ => show win0_1.index t (1 : Fin 2) * 1024 + 1 * e.val = e.val; omega

/-- Window 1's block does not depend on the grid point. -/
theorem blk1_const (c : Dev nD) (t t' : Fin cfg0.N) :
    (iblk m c 1 t : Vec Ideal S1024x1024 .bf16) = iblk m c 1 t' := by
  funext j
  rw [eq_ix2 j]
  exact (blk1_apply m c t _ _).trans (blk1_apply m c t' _ _).symm

/-- The array window 3 stages is argument 3 narrowed to bf16, which at the extended reals changes nothing. -/
theorem V_v2 (c : Dev nD) : (V m c main_v2 : S1024x1024.Idx → EReal) = m ((c.tc : Thread nD τ).loc main_arg3) := by
  dsimp only [Gen.V, Gen.hostOps0]
  after_results
  rfl

/-- Window 3's block index is (0, 0) at every grid point: its block is the whole array. -/
theorem idx3_facts : ∀ t : Fin cfg0.N, win0_3.index t (0 : Fin 2) = 0 ∧ win0_3.index t (1 : Fin 2) = 0 :=
  (by decide +kernel : ∀ t : Fin grid0.N, _)

/-- Window 3's block at any grid point, read at (d, e), is argument 3 at (d, e). -/
theorem blk3_apply (c : Dev nD) (t : Fin cfg0.N) (d e : Fin 1024) :
    iblk m c 3 t (ix2 d e) = m ((c.tc : Thread nD τ).loc main_arg3) (ix2 d e) := by
  unfold iblk
  show V m c main_v2 (((cfg0.win 3).blk t).view.emb (ix2 d e)) = _
  rw [V_v2]
  refine congrArg _ ?_
  obtain ⟨e0, e1⟩ := idx3_facts t
  funext a; apply Fin.ext
  match a with
  | ⟨0, _⟩ => show win0_3.index t (0 : Fin 2) * 1024 + 1 * d.val = d.val; omega
  | ⟨1, _⟩ => show win0_3.index t (1 : Fin 2) * 1024 + 1 * e.val = e.val; omega

/-- Window 3's block does not depend on the grid point. -/
theorem blk3_const (c : Dev nD) (t t' : Fin cfg0.N) :
    (iblk m c 3 t : Vec Ideal S1024x1024 .bf16) = iblk m c 3 t' := by
  funext j
  rw [eq_ix2 j]
  exact (blk3_apply m c t _ _).trans (blk3_apply m c t' _ _).symm

/-- The array window 5 stages is argument 5 narrowed to bf16, which at the extended reals changes nothing. -/
theorem V_v3 (c : Dev nD) : (V m c main_v3 : S1024x1024.Idx → EReal) = m ((c.tc : Thread nD τ).loc main_arg5) := by
  dsimp only [Gen.V, Gen.hostOps0]
  after_results
  rfl

/-- Window 5's block index is (0, 0) at every grid point: its block is the whole array. -/
theorem idx5_facts : ∀ t : Fin cfg0.N, win0_5.index t (0 : Fin 2) = 0 ∧ win0_5.index t (1 : Fin 2) = 0 :=
  (by decide +kernel : ∀ t : Fin grid0.N, _)

/-- Window 5's block at any grid point, read at (d, e), is argument 5 at (d, e). -/
theorem blk5_apply (c : Dev nD) (t : Fin cfg0.N) (d e : Fin 1024) :
    iblk m c 5 t (ix2 d e) = m ((c.tc : Thread nD τ).loc main_arg5) (ix2 d e) := by
  unfold iblk
  show V m c main_v3 (((cfg0.win 5).blk t).view.emb (ix2 d e)) = _
  rw [V_v3]
  refine congrArg _ ?_
  obtain ⟨e0, e1⟩ := idx5_facts t
  funext a; apply Fin.ext
  match a with
  | ⟨0, _⟩ => show win0_5.index t (0 : Fin 2) * 1024 + 1 * d.val = d.val; omega
  | ⟨1, _⟩ => show win0_5.index t (1 : Fin 2) * 1024 + 1 * e.val = e.val; omega

/-- Window 5's block does not depend on the grid point. -/
theorem blk5_const (c : Dev nD) (t t' : Fin cfg0.N) :
    (iblk m c 5 t : Vec Ideal S1024x1024 .bf16) = iblk m c 5 t' := by
  funext j
  rw [eq_ix2 j]
  exact (blk5_apply m c t _ _).trans (blk5_apply m c t' _ _).symm

/-! ## Windows 2, 4, 6: the bias vectors as rows, whole -/

/-- The array window 2 stages is argument 2 (a vector of 1024 entries) laid out as one row: entry (u, e) is entry e. -/
theorem V_v4 (c : Dev nD) (u : Fin 1) (e : Fin 1024) :
    (V m c main_v4 : S1x1024.Idx → EReal) (ix2 u e) = m ((c.tc : Thread nD τ).loc main_arg2) (ix1 e) := by
  dsimp only [Gen.V, Gen.hostOps0]
  after_results
  show shapeCast S1x1024 (m ((c.tc : Thread nD τ).loc main_arg2)) shapeCasts_S1024_S1x1024 (ix2 u e) = _
  exact shapeCast_a_1a_apply _ _ u e

/-- Window 2's block index is (0, 0) at every grid point: its block is the whole array. -/
theorem idx2_facts : ∀ t : Fin cfg0.N, win0_2.index t (0 : Fin 2) = 0 ∧ win0_2.index t (1 : Fin 2) = 0 :=
  (by decide +kernel : ∀ t : Fin grid0.N, _)

/-- Window 2's block at any grid point, read at (u, e), is argument 2 at e. -/
theorem blk2_apply (c : Dev nD) (t : Fin cfg0.N) (u : Fin 1) (e : Fin 1024) :
    iblk m c 2 t (ix2 u e) = m ((c.tc : Thread nD τ).loc main_arg2) (ix1 e) := by
  unfold iblk
  show V m c main_v4 (((cfg0.win 2).blk t).view.emb (ix2 u e)) = _
  have hi : ((cfg0.win 2).blk t).view.emb (ix2 u e) = ix2 u e := by
    obtain ⟨e0, e1⟩ := idx2_facts t
    funext a; apply Fin.ext
    match a with
    | ⟨0, _⟩ => show win0_2.index t (0 : Fin 2) * 1 + 1 * u.val = u.val; omega
    | ⟨1, _⟩ => show win0_2.index t (1 : Fin 2) * 1024 + 1 * e.val = e.val; omega
  rw [hi]
  exact V_v4 m c u e

/-- Window 2's block does not depend on the grid point. -/
theorem blk2_const (c : Dev nD) (t t' : Fin cfg0.N) :
    (iblk m c 2 t : Vec Ideal S1x1024 .f32) = iblk m c 2 t' := by
  funext j
  rw [eq_ix2 j]
  exact (blk2_apply m c t _ _).trans (blk2_apply m c t' _ _).symm

/-- The array window 4 stages is argument 4 (a vector of 1024 entries) laid out as one row: entry (u, e) is entry e. -/
theorem V_v5 (c : Dev nD) (u : Fin 1) (e : Fin 1024) :
    (V m c main_v5 : S1x1024.Idx → EReal) (ix2 u e) = m ((c.tc : Thread nD τ).loc main_arg4) (ix1 e) := by
  dsimp only [Gen.V, Gen.hostOps0]
  after_results
  show shapeCast S1x1024 (m ((c.tc : Thread nD τ).loc main_arg4)) shapeCasts_S1024_S1x1024 (ix2 u e) = _
  exact shapeCast_a_1a_apply _ _ u e

/-- Window 4's block index is (0, 0) at every grid point: its block is the whole array. -/
theorem idx4_facts : ∀ t : Fin cfg0.N, win0_4.index t (0 : Fin 2) = 0 ∧ win0_4.index t (1 : Fin 2) = 0 :=
  (by decide +kernel : ∀ t : Fin grid0.N, _)

/-- Window 4's block at any grid point, read at (u, e), is argument 4 at e. -/
theorem blk4_apply (c : Dev nD) (t : Fin cfg0.N) (u : Fin 1) (e : Fin 1024) :
    iblk m c 4 t (ix2 u e) = m ((c.tc : Thread nD τ).loc main_arg4) (ix1 e) := by
  unfold iblk
  show V m c main_v5 (((cfg0.win 4).blk t).view.emb (ix2 u e)) = _
  have hi : ((cfg0.win 4).blk t).view.emb (ix2 u e) = ix2 u e := by
    obtain ⟨e0, e1⟩ := idx4_facts t
    funext a; apply Fin.ext
    match a with
    | ⟨0, _⟩ => show win0_4.index t (0 : Fin 2) * 1 + 1 * u.val = u.val; omega
    | ⟨1, _⟩ => show win0_4.index t (1 : Fin 2) * 1024 + 1 * e.val = e.val; omega
  rw [hi]
  exact V_v5 m c u e

/-- Window 4's block does not depend on the grid point. -/
theorem blk4_const (c : Dev nD) (t t' : Fin cfg0.N) :
    (iblk m c 4 t : Vec Ideal S1x1024 .f32) = iblk m c 4 t' := by
  funext j
  rw [eq_ix2 j]
  exact (blk4_apply m c t _ _).trans (blk4_apply m c t' _ _).symm

/-- The array window 6 stages is argument 6 (a vector of 1024 entries) laid out as one row: entry (u, e) is entry e. -/
theorem V_v6 (c : Dev nD) (u : Fin 1) (e : Fin 1024) :
    (V m c main_v6 : S1x1024.Idx → EReal) (ix2 u e) = m ((c.tc : Thread nD τ).loc main_arg6) (ix1 e) := by
  dsimp only [Gen.V, Gen.hostOps0]
  after_results
  show shapeCast S1x1024 (m ((c.tc : Thread nD τ).loc main_arg6)) shapeCasts_S1024_S1x1024 (ix2 u e) = _
  exact shapeCast_a_1a_apply _ _ u e

/-- Window 6's block index is (0, 0) at every grid point: its block is the whole array. -/
theorem idx6_facts : ∀ t : Fin cfg0.N, win0_6.index t (0 : Fin 2) = 0 ∧ win0_6.index t (1 : Fin 2) = 0 :=
  (by decide +kernel : ∀ t : Fin grid0.N, _)

/-- Window 6's block at any grid point, read at (u, e), is argument 6 at e. -/
theorem blk6_apply (c : Dev nD) (t : Fin cfg0.N) (u : Fin 1) (e : Fin 1024) :
    iblk m c 6 t (ix2 u e) = m ((c.tc : Thread nD τ).loc main_arg6) (ix1 e) := by
  unfold iblk
  show V m c main_v6 (((cfg0.win 6).blk t).view.emb (ix2 u e)) = _
  have hi : ((cfg0.win 6).blk t).view.emb (ix2 u e) = ix2 u e := by
    obtain ⟨e0, e1⟩ := idx6_facts t
    funext a; apply Fin.ext
    match a with
    | ⟨0, _⟩ => show win0_6.index t (0 : Fin 2) * 1 + 1 * u.val = u.val; omega
    | ⟨1, _⟩ => show win0_6.index t (1 : Fin 2) * 1024 + 1 * e.val = e.val; omega
  rw [hi]
  exact V_v6 m c u e

/-- Window 6's block does not depend on the grid point. -/
theorem blk6_const (c : Dev nD) (t t' : Fin cfg0.N) :
    (iblk m c 6 t : Vec Ideal S1x1024 .f32) = iblk m c 6 t' := by
  funext j
  rw [eq_ix2 j]
  exact (blk6_apply m c t _ _).trans (blk6_apply m c t' _ _).symm

end Cert.KernelIdeal.Blocks

end
-- ==== Proof.KernelBridge.lean ====
/-
  A result row computed from the windows' blocks is the attention of the argument arrays.

  At grid point t the query block, the three weight blocks and the three bias blocks are, entry by entry, the
  argument arrays themselves (x at batch t / 8), so the row built from the blocks — the projected query row
  against the projected key rows, through the softmax, against the projected value rows — is the
  specification's row (t / 8, s) of the argument arrays.
-/
import proofs.«109713_j73014444032668_2_alg».proof.Proof.KernelRows
import proofs.«109713_j73014444032668_2_alg».proof.Proof.KernelScratch
import proofs.«109713_j73014444032668_2_alg».proof.Proof.KernelBlocks
import proofs.«109713_j73014444032668_2_alg».proof.Proof.KernelSpec

set_option maxRecDepth 16384

noncomputable section

namespace Cert.KernelIdeal.Bridge

open Cert.KernelIdeal Cert.KernelIdeal.Gen Cert.KernelIdeal.Blocks Idealize.ShloMosaic Idealize.ShloMosaic.ValueIdx
open Idealize.ShloMosaic.TcCoe Idealize.SL.Sem Cert.Attn

/-- The row (s, e) built from the blocks at point t is the attention of the arguments at (t / 8, s, e): every
    leaf of the two expressions — an entry of x, of a weight matrix, of a bias — is the same entry of the same
    argument array. -/
theorem tileRow_blocks (m : (ℓ : Loc nD τ sig) → Buf (Elt Ideal) ℓ) (c : Dev nD) (t : Fin cfg0.N) (s : Fin 2048) (e : Fin 1024) :
    Out.tileRow (iblk m c 0 t) (iblk m c 1 t) (iblk m c 2 t)
        (Scratch.rowsOf (iblk m c 0 t) (iblk m c 3 t) (iblk m c 4 t)) (Scratch.rowsOf (iblk m c 0 t) (iblk m c 5 t) (iblk m c 6 t)) s e
      = Spec.attnAt m c (⟨t.val / 8, by have := t.isLt; have : cfg0.N = 32 := N_0; omega⟩ : Fin 4) s e := by
  have hX : ∀ (s' : Fin 2048) (d : Fin 1024), iblk m c 0 t (ix3 (0 : Fin 1) s' d)
      = Spec.argX m c (⟨t.val / 8, by have := t.isLt; have : cfg0.N = 32 := N_0; omega⟩ : Fin 4) s' d :=
    fun s' d => blk0_apply m c t 0 s' d
  have hWq : ∀ d e', iblk m c 1 t (ix2 d e') = Spec.argWq m c d e' := fun d e' => blk1_apply m c t d e'
  have hBq : ∀ e', iblk m c 2 t (ix2 (0 : Fin 1) e') = Spec.argBq m c e' := fun e' => blk2_apply m c t 0 e'
  have hWk : ∀ d e', iblk m c 3 t (ix2 d e') = Spec.argWk m c d e' := fun d e' => blk3_apply m c t d e'
  have hBk : ∀ e', iblk m c 4 t (ix2 (0 : Fin 1) e') = Spec.argBk m c e' := fun e' => blk4_apply m c t 0 e'
  have hWv : ∀ d e', iblk m c 5 t (ix2 d e') = Spec.argWv m c d e' := fun d e' => blk5_apply m c t d e'
  have hBv : ∀ e', iblk m c 6 t (ix2 (0 : Fin 1) e') = Spec.argBv m c e' := fun e' => blk6_apply m c t 0 e'
  unfold Out.tileRow Spec.attnAt Cert.Attn.attn
  simp only [Scratch.rowsOf_apply, hX, hWq, hBq, hWk, hBk, hWv, hBv]

end Cert.KernelIdeal.Bridge

end
-- ==== Proof.KernelInv.lean ====
/-
  What every grid point leaves behind: the scratch buffers hold the key rows and value rows of the point's batch,
  and the result tile holds the attention of its 256 query rows.

  The grid runs the eight row tiles of a batch one after the other. The first of them rebuilds both scratch buffers
  from the batch's input block; the other seven leave them alone, and their input block is the same one. So after
  any point the scratch holds the projections of that point's own block (induction along the grid), and every tile is
  computed against the right keys and values.
-/
import proofs.«109713_j73014444032668_2_alg».proof.Proof.KernelOut
import proofs.«109713_j73014444032668_2_alg».proof.Proof.KernelBlocks
import proofs.«109713_j73014444032668_2_alg».proof.Proof.KernelBridge

set_option maxRecDepth 16384

noncomputable section

namespace Cert.KernelIdeal.Inv

open Cert.KernelIdeal Cert.KernelIdeal.Gen Idealize.ShloMosaic Idealize.ShloMosaic.ValueIdx Idealize.ShloMosaic.TcCoe
open Idealize.SL.Sem Cert.Attn Cert.KernelIdeal.Scratch Cert.KernelIdeal.Out Cert.KernelIdeal.Blocks Cert.KernelIdeal.Bridge

variable (m : (ℓ : Loc nD τ sig) → Buf (Elt Ideal) ℓ) (c : Dev nD)

/-- The query tile of point `t` starts at row 256 · (t mod 8) of the block (decided over the 32 points). -/
theorem tile_offset : ∀ t : Fin cfg0.N,
    k0_off1 (grid0.coords t) 0 = 0 ∧ k0_off1 (grid0.coords t) 1 = 256 * (t.val % 8) ∧ k0_off1 (grid0.coords t) 2 = 0 :=
  (by decide +kernel : ∀ t : Fin grid0.N,
    k0_off1 (grid0.coords t) 0 = 0 ∧ k0_off1 (grid0.coords t) 1 = 256 * (t.val % 8) ∧ k0_off1 (grid0.coords t) 2 = 0)

/-- After every point the two scratch buffers hold the projected key rows and value rows of that point's block. -/
theorem scratch_at : ∀ (n : ℕ) (t : Fin cfg0.N), t.val = n →
    (outsAt0 m c t.val t.isLt).2.1 = rowsOf (iblk m c 0 t) (iblk m c 3 t) (iblk m c 4 t)
    ∧ (outsAt0 m c t.val t.isLt).2.2 = rowsOf (iblk m c 0 t) (iblk m c 5 t) (iblk m c 6 t) := by
  intro n
  induction n with
  | zero =>
    intro t ht
    have h0 : t.val % 8 = 0 := by omega
    rw [outsAt0_A m c t h0]
    dsimp only
    exact ⟨keys_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      vals_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)⟩
  | succ n ih =>
    intro t ht
    by_cases h0 : t.val % 8 = 0
    · rw [outsAt0_A m c t h0]
      dsimp only
      exact ⟨keys_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
        vals_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)⟩
    · have hp := ih ⟨t.val - 1, by have := t.isLt; omega⟩ (by show t.val - 1 = n; omega)
      rw [outsAt0_B m c t h0]
      dsimp only
      unfold sout0_B_0 sout0_B_1
      refine ⟨hp.1.trans ?_, hp.2.trans ?_⟩
      · rw [← blk0_prev m c t h0, blk3_const m c _ t, blk4_const m c _ t]
      · rw [← blk0_prev m c t h0, blk5_const m c _ t, blk6_const m c _ t]

/-- What a later point of a batch finds in the scratch: the rows of its own block. -/
theorem scratch_before (t : Fin cfg0.N) (h0 : ¬t.val % 8 = 0) :
    (outsAt0 m c (t.val - 1) (Nat.lt_of_le_of_lt (Nat.sub_le _ _) t.isLt)).2.1 = rowsOf (iblk m c 0 t) (iblk m c 3 t) (iblk m c 4 t)
    ∧ (outsAt0 m c (t.val - 1) (Nat.lt_of_le_of_lt (Nat.sub_le _ _) t.isLt)).2.2 = rowsOf (iblk m c 0 t) (iblk m c 5 t) (iblk m c 6 t) := by
  have hp := scratch_at m c (t.val - 1) ⟨t.val - 1, by have := t.isLt; omega⟩ rfl
  refine ⟨hp.1.trans ?_, hp.2.trans ?_⟩
  · rw [← blk0_prev m c t h0, blk3_const m c _ t, blk4_const m c _ t]
  · rw [← blk0_prev m c t h0, blk5_const m c _ t, blk6_const m c _ t]

/-- THE TILES: after point `t` the result block holds, at row `r` of the tile, the attention of row
    256 · (t mod 8) + r of batch entry t / 8. -/
theorem out_at (t : Fin cfg0.N) (u : Fin 1) (r : Fin 256) (e : Fin 1024) :
    (outsAt0 m c t.val t.isLt).1 (ix3 u r e)
      = Spec.attnAt m c (⟨t.val / 8, by have := t.isLt; have : cfg0.N = 32 := N_0; omega⟩ : Fin 4)
          (⟨256 * (t.val % 8) + r.val, by have := r.isLt; omega⟩ : Fin 2048) e := by
  obtain ⟨f0, f1, f2⟩ := tile_offset t
  have hq : 256 * (t.val % 8) + 256 ≤ 2048 := by omega
  rw [← tileRow_blocks m c t (⟨256 * (t.val % 8) + r.val, by have := r.isLt; omega⟩ : Fin 2048) e]
  by_cases h0 : t.val % 8 = 0
  · rw [outsAt0_A m c t h0]
    dsimp only
    exact first_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (256 * (t.val % 8)) f0 f1 f2 hq u r e
  · obtain ⟨e1, e2⟩ := scratch_before m c t h0
    rw [outsAt0_B m c t h0]
    dsimp only
    refine (later_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (fun h => h0 ((hcond0_0 t).mp h))
      (outsAt0 m c (t.val - 1) (Nat.lt_of_le_of_lt (Nat.sub_le _ _) t.isLt)).2.1 (outsAt0 m c (t.val - 1) (Nat.lt_of_le_of_lt (Nat.sub_le _ _) t.isLt)).2.2 (256 * (t.val % 8)) f0 f1 f2 hq u r e).trans ?_
    rw [e1, e2]

end Cert.KernelIdeal.Inv

end
-- ==== Proof.lean ====
/-
  The proof of `Cert.Claim`: the three programs run and leave their arguments unchanged, and at the ideal
  values the kernel and the reference end with one and the same result array.

  Both programs compute single-head self-attention of x : [4, 2048, 1024] under three projections
  q = x·Wq + bq, k = x·Wk + bk, v = x·Wv + bv: for each batch entry and each row s, with the scores
  r t = (q s · k t) / √1024, M = max_t r t, p t = exp (r t − M) and L = Σ_t p t, the result row is Σ_t (p t / L) · v t.
  The kernel builds the keys and the values once per batch entry into scratch, multiplies the scores by the
  factor 1/32, combines the exponentials with the value rows first and divides the combination once by L.
  The reference divides the scores by √1024 and divides every exponential by L before the combination.
  On the extended reals the two agree whenever L is a positive real: √1024 = 32 exactly, and a sum of
  quotients by a positive real is the quotient of the sum. L is a positive real as soon as the scores are
  reals (it is a sum of exponentials of reals, one of them exp 0), and the scores are reals when x, Wq, bq,
  Wk, bk hold reals — which the precondition, every input finite, gives.

  So both results are stated as ONE function of the argument arrays, the attention at each index
  (`Cert.KernelIdeal.Spec.result`): the kernel's array holds it block by block (each grid point writes back
  256 rows of one batch entry, and the blocks tile the array), and the reference's composed term, read index
  by index, is the same attention of the same arguments.
-/
import proofs.«109713_j73014444032668_2_alg».proof.Defs
import proofs.«109713_j73014444032668_2_alg».proof.Proof.Gen.Kernel
import proofs.«109713_j73014444032668_2_alg».proof.Proof.Gen.Kernel.Skeleton
import proofs.«109713_j73014444032668_2_alg».proof.Proof.Gen.Kernel.Launch
import proofs.«109713_j73014444032668_2_alg».proof.Proof.Gen.Kernel.Points
import proofs.«109713_j73014444032668_2_alg».proof.Proof.Gen.Kernel.Frame
import proofs.«109713_j73014444032668_2_alg».proof.Proof.Gen.KernelIdeal
import proofs.«109713_j73014444032668_2_alg».proof.Proof.Gen.KernelIdeal.Skeleton
import proofs.«109713_j73014444032668_2_alg».proof.Proof.Gen.KernelIdeal.Launch
import proofs.«109713_j73014444032668_2_alg».proof.Proof.Gen.KernelIdeal.Points
import proofs.«109713_j73014444032668_2_alg».proof.Proof.Gen.KernelIdeal.Frame
import proofs.«109713_j73014444032668_2_alg».proof.Proof.Gen.ReferenceIdeal
import proofs.«109713_j73014444032668_2_alg».proof.Proof.Gen.KernelIdeal.Value
import proofs.«109713_j73014444032668_2_alg».proof.Proof.Gen.ReferenceIdeal.Run
import proofs.«109713_j73014444032668_2_alg».proof.Proof.Gen.ReferenceIdeal.Read
import proofs.«109713_j73014444032668_2_alg».proof.Proof.Gen.Pre_finite_inputs
import proofs.«109713_j73014444032668_2_alg».proof.Proof.KernelSpec
import proofs.«109713_j73014444032668_2_alg».proof.Proof.PreReal
import proofs.«109713_j73014444032668_2_alg».proof.Proof.RefValue
import proofs.«109713_j73014444032668_2_alg».proof.Proof.KernelValue
import proofs.«109713_j73014444032668_2_alg».proof.Proof.KernelInv
import Idealize.ShloMosaic.Adequacy
import Idealize.ShloMosaic.Init

noncomputable section

namespace Cert.Proof

open Idealize.ShloMosaic Idealize.SL.Sem Cert.Kernel

/-- The kernel as printed runs and leaves its arguments unchanged. -/
theorem frame_p : Cert.frame_Kernel := fun m ρ _ => Cert.Kernel.Gen.frame m ρ

/-- So does the kernel read at the ideal values. -/
theorem frame_pi : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the attention of the argument arrays in their result array:
    the kernel's blocks tile it, and the reference's term, index by index, is the same attention once the
    arguments on the softmax path hold reals — which the precondition gives. -/
theorem algebraic : Cert.algebraic_KernelIdeal_ReferenceIdeal := by
  intro m ρ m' ρ' hpre hagree
  refine ⟨fun c => Cert.KernelIdeal.Spec.result m c,
    Cert.KernelIdeal.FinalValue.run m ρ (fun c t u r e => Cert.KernelIdeal.Inv.out_at m c t u r e), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, -, -⟩ := Cert.PreReal.real_of_pre _ _ _ _ _ _ _ (hpre c)
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  refine funext fun (y : Cert.ReferenceIdeal.S4x2048x1024.Idx) => ?_
  obtain ⟨n, s, e, rfl⟩ : ∃ (n : Fin 4) (s : Fin 2048) (e : Fin 1024), y = ValueIdx.ix3 n s e :=
    ⟨y 0, y 1, y 2, ValueIdx.eq_ix3 y⟩
  refine (Cert.ReferenceIdeal.RefValue.ref_apply _ _ _ _ _ _ _ h0 h1 h2 h3 h4 n s e).trans ?_
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
